-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2x51x51 : Shape := ⟨4, ![1, 2, 51, 51]⟩
abbrev S256x96x2 : Shape := ⟨3, ![256, 96, 2]⟩
abbrev S256x96x1x1 : Shape := ⟨4, ![256, 96, 1, 1]⟩
abbrev S256x256x96 : Shape := ⟨3, ![256, 256, 96]⟩
abbrev S_ : Shape := ⟨0, ![]⟩

class Facts : Prop where
  bcast_S_S1x2x51x51 : S_.BroadcastsInDim S1x2x51x51 (![] : Fin 0 → Fin S1x2x51x51.rank)
  reducesTo_S1x2x51x51_S_d0_1_2_3 : S1x2x51x51.ReducesTo [0, 1, 2, 3] S_
  h_S_ : 0 < S_.numel
  bcast_S_S256x96x2 : S_.BroadcastsInDim S256x96x2 (![] : Fin 0 → Fin S256x96x2.rank)
  reducesTo_S256x96x2_S_d0_1_2 : S256x96x2.ReducesTo [0, 1, 2] S_
  bcast_S_S256x96x1x1 : S_.BroadcastsInDim S256x96x1x1 (![] : Fin 0 → Fin S256x96x1x1.rank)
  reducesTo_S256x96x1x1_S_d0_1_2_3 : S256x96x1x1.ReducesTo [0, 1, 2, 3] S_
  bcast_S_S256x256x96 : S_.BroadcastsInDim S256x256x96 (![] : Fin 0 → Fin S256x256x96.rank)
  reducesTo_S256x256x96_S_d0_1_2 : S256x256x96.ReducesTo [0, 1, 2] S_

variable [Facts]

def fn_part1 {F : FTy → Type} [FloatOps F] (main_v13 : IVec S_ 1) (main_v16 : IVec S256x256x96 1) : IVec S_ 1 :=
  let main_c_5 : IVec S_ 1 := constantI S_ 1 1#1
  let main_v17 : IVec S_ 1 := (fun x v => Host.reduce IntOp.andi x v reducesTo_S256x256x96_S_d0_1_2 h_S_) main_v16 main_c_5
  let main_v18 : IVec S_ 1 := andi main_v13 main_v17
  main_v18

def fn {F : FTy → Type} [FloatOps F] (main_arg0 : FVec F S1x2x51x51 .f32) (main_arg1 : FVec F S256x96x2 .f32) (main_arg2 : FVec F S256x96x1x1 .f32) (main_arg3 : FVec F S256x256x96 .f32) : IVec S_ 1 :=
  let main_v0 : FVec F S1x2x51x51 .f32 := Host.absf main_arg0
  let main_cst : FVec F S_ .f32 := constant S_ .f32 0x7F800000#32
  let main_v1 : FVec F S1x2x51x51 .f32 := broadcastInDim S1x2x51x51 ![] bcast_S_S1x2x51x51 main_cst
  let main_v2 : IVec S1x2x51x51 1 := cmpf .olt main_v0 main_v1
  let main_c : IVec S_ 1 := constantI S_ 1 1#1
  let main_v3 : IVec S_ 1 := (fun x v => Host.reduce IntOp.andi x v reducesTo_S1x2x51x51_S_d0_1_2_3 h_S_) main_v2 main_c
  let main_v4 : FVec F S256x96x2 .f32 := Host.absf main_arg1
  let main_cst_0 : FVec F S_ .f32 := constant S_ .f32 0x7F800000#32
  let main_v5 : FVec F S256x96x2 .f32 := broadcastInDim S256x96x2 ![] bcast_S_S256x96x2 main_cst_0
  let main_v6 : IVec S256x96x2 1 := cmpf .olt main_v4 main_v5
  let main_c_1 : IVec S_ 1 := constantI S_ 1 1#1
  let main_v7 : IVec S_ 1 := (fun x v => Host.reduce IntOp.andi x v reducesTo_S256x96x2_S_d0_1_2 h_S_) main_v6 main_c_1
  let main_v8 : IVec S_ 1 := andi main_v3 main_v7
  let main_v9 : FVec F S256x96x1x1 .f32 := Host.absf main_arg2
  let main_cst_2 : FVec F S_ .f32 := constant S_ .f32 0x7F800000#32
  let main_v10 : FVec F S256x96x1x1 .f32 := broadcastInDim S256x96x1x1 ![] bcast_S_S256x96x1x1 main_cst_2
  let main_v11 : IVec S256x96x1x1 1 := cmpf .olt main_v9 main_v10
  let main_c_3 : IVec S_ 1 := constantI S_ 1 1#1
  let main_v12 : IVec S_ 1 := (fun x v => Host.reduce IntOp.andi x v reducesTo_S256x96x1x1_S_d0_1_2_3 h_S_) main_v11 main_c_3
  let main_v13 : IVec S_ 1 := andi main_v8 main_v12
  let main_v14 : FVec F S256x256x96 .f32 := Host.absf main_arg3
  let main_cst_4 : FVec F S_ .f32 := constant S_ .f32 0x7F800000#32
  let main_v15 : FVec F S256x256x96 .f32 := broadcastInDim S256x256x96 ![] bcast_S_S256x256x96 main_cst_4
  let main_v16 : IVec S256x256x96 1 := cmpf .olt main_v14 main_v15
  fn_part1 (F := F) main_v13 main_v16
-- ==== Kernel.lean ====
abbrev S1x2x51x51 : Shape := ⟨4, ![1, 2, 51, 51]⟩
abbrev S256x96x2 : Shape := ⟨3, ![256, 96, 2]⟩
abbrev S256x96x1x1 : Shape := ⟨4, ![256, 96, 1, 1]⟩
abbrev S256x256x96 : Shape := ⟨3, ![256, 256, 96]⟩
abbrev S2x51x51 : Shape := ⟨3, ![2, 51, 51]⟩
abbrev S2x2601 : Shape := ⟨2, ![2, 2601]⟩
abbrev S256x96 : Shape := ⟨2, ![256, 96]⟩
abbrev S256x2x96 : Shape := ⟨3, ![256, 2, 96]⟩
abbrev S256x256x2601 : Shape := ⟨3, ![256, 256, 2601]⟩
abbrev S32x2x96 : Shape := ⟨3, ![32, 2, 96]⟩
abbrev S32x96 : Shape := ⟨2, ![32, 96]⟩
abbrev S32x256x96 : Shape := ⟨3, ![32, 256, 96]⟩
abbrev S2x256 : Shape := ⟨2, ![2, 256]⟩
abbrev S32x256x256 : Shape := ⟨3, ![32, 256, 256]⟩
abbrev S1x256 : Shape := ⟨2, ![1, 256]⟩
abbrev S256 : Shape := ⟨1, ![256]⟩
abbrev S32x1x96 : Shape := ⟨3, ![32, 1, 96]⟩
abbrev S32x96x1 : Shape := ⟨3, ![32, 96, 1]⟩
abbrev S1x1x256 : Shape := ⟨3, ![1, 1, 256]⟩
abbrev S32x96x256 : Shape := ⟨3, ![32, 96, 256]⟩
abbrev S32x256 : Shape := ⟨2, ![32, 256]⟩
abbrev S32x1x256 : Shape := ⟨3, ![32, 1, 256]⟩
abbrev S256x256x51x51 : Shape := ⟨4, ![256, 256, 51, 51]⟩

abbrev nBuf : Space → Nat
  | .hbm => 12
  | .vmem => 10
  | .smem => 0
  | _ => 0

abbrev bufTy : (tb : Table) → Fin (tcTables nBuf tb) → BufTy
  | .hbm, ⟨0, _⟩ => ⟨S1x2x51x51, .f32⟩
  | .hbm, ⟨1, _⟩ => ⟨S256x96x2, .f32⟩
  | .hbm, ⟨2, _⟩ => ⟨S256x96x1x1, .f32⟩
  | .hbm, ⟨3, _⟩ => ⟨S256x256x96, .f32⟩
  | .hbm, ⟨4, _⟩ => ⟨S2x51x51, .f32⟩
  | .hbm, ⟨5, _⟩ => ⟨S2x51x51, .f32⟩
  | .hbm, ⟨6, _⟩ => ⟨S2x51x51, .f32⟩
  | .hbm, ⟨7, _⟩ => ⟨S2x2601, .f32⟩
  | .hbm, ⟨8, _⟩ => ⟨S256x96, .f32⟩
  | .hbm, ⟨9, _⟩ => ⟨S256x2x96, .f32⟩
  | .hbm, ⟨10, _⟩ => ⟨S256x256x2601, .f32⟩
  | .hbm, ⟨11, _⟩ => ⟨S256x256x51x51, .f32⟩
  | .local _ .vmem, ⟨0, _⟩ => ⟨S32x2x96, .f32⟩
  | .local _ .vmem, ⟨1, _⟩ => ⟨S32x2x96, .f32⟩
  | .local _ .vmem, ⟨2, _⟩ => ⟨S32x96, .f32⟩
  | .local _ .vmem, ⟨3, _⟩ => ⟨S32x96, .f32⟩
  | .local _ .vmem, ⟨4, _⟩ => ⟨S32x256x96, .f32⟩
  | .local _ .vmem, ⟨5, _⟩ => ⟨S32x256x96, .f32⟩
  | .local _ .vmem, ⟨6, _⟩ => ⟨S2x256, .f32⟩
  | .local _ .vmem, ⟨7, _⟩ => ⟨S2x256, .f32⟩
  | .local _ .vmem, ⟨8, _⟩ => ⟨S32x256x256, .f32⟩
  | .local _ .vmem, ⟨9, _⟩ => ⟨S32x256x256, .f32⟩
  | _, _ => ⟨S1x2x51x51, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S32x2x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x256x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S32x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1x2x51x51_S2x51x51 : S1x2x51x51.ShapeCasts S2x51x51
  transposes_S2x51x51_S2x51x51_0_2_1 : S2x51x51.Transposes [0, 2, 1] S2x51x51
  shapeCasts_S2x51x51_S2x2601 : S2x51x51.ShapeCasts S2x2601
  shapeCasts_S256x96x1x1_S256x96 : S256x96x1x1.ShapeCasts S256x96
  transposes_S256x96x2_S256x2x96_0_2_1 : S256x96x2.Transposes [0, 2, 1] S256x2x96
  inb_S32x2x96_S32x2x96_0_0_0 : ∀ a, (![0, 0, 0] : Fin 3 → Nat) a + S32x2x96.size a ≤ S32x2x96.size a
  h_S32x2x96 : 0 < S32x2x96.numel
  shapeCasts_S32x2x96_S32x2x96 : S32x2x96.ShapeCasts S32x2x96
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S32x96_S32x96_0_0 : ∀ a, (![0, 0] : Fin 2 → Nat) a + S32x96.size a ≤ S32x96.size a
  h_S32x96 : 0 < S32x96.numel
  shapeCasts_S32x96_S32x96 : S32x96.ShapeCasts S32x96
  slices_S2x256_o0_0_S1x256 : S2x256.Slices ![0, 0] S1x256
  shapeCasts_S1x256_S256 : S1x256.ShapeCasts S256
  slices_S2x256_o1_0_S1x256 : S2x256.Slices ![1, 0] S1x256
  slices_S32x2x96_o0_0_0_S32x1x96 : S32x2x96.Slices ![0, 0, 0] S32x1x96
  shapeCasts_S32x1x96_S32x96 : S32x1x96.ShapeCasts S32x96
  slices_S32x2x96_o0_1_0_S32x1x96 : S32x2x96.Slices ![0, 1, 0] S32x1x96
  shapeCasts_S32x96_S32x96x1 : S32x96.ShapeCasts S32x96x1
  shapeCasts_S256_S1x1x256 : S256.ShapeCasts S1x1x256
  broadcasts_S32x96x1_S32x96x256 : S32x96x1.Broadcasts S32x96x256
  broadcasts_S1x1x256_S32x96x256 : S1x1x256.Broadcasts S32x96x256
  natLt_1_32 : 1 < 32
  reduces_S32x96x256_S32x256 : S32x96x256.Reduces [1] S32x256
  shapeCasts_S32x256_S32x1x256 : S32x256.ShapeCasts S32x1x256
  broadcasts_S32x1x256_S32x96x256 : S32x1x256.Broadcasts S32x96x256
  inb_S32x256x96_S32x256x96_0_0_0 : ∀ a, (![0, 0, 0] : Fin 3 → Nat) a + S32x256x96.size a ≤ S32x256x96.size a
  h_S32x256x96 : 0 < S32x256x96.numel
  bitsLt_bf16_f32 : FTy.bits .bf16 < FTy.bits .f32
  inb_S32x256x256_S32x256x256_0_0_0 : ∀ a, (![0, 0, 0] : Fin 3 → Nat) a + S32x256x256.size a ≤ S32x256x256.size a
  h_S32x256x256 : 0 < S32x256x256.numel
  shapeCasts_S256x256x2601_S256x256x51x51 : S256x256x2601.ShapeCasts S256x256x51x51
  dot_S32x256x96_S32x96x256_S32x256x256_2_1_1_2_0_0_wf : DotDims.WF S32x256x96 S32x96x256 S32x256x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2x96.size a ≤ S256x2x96.size a
  hwx0_0 : ∀ i : grid0.Coords, EltTy.bits .f32 = 32 ∨ (Rect.block (s := S256x2x96) S32x2x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x96.size a ≤ S256x96.size a
  hwx0_1 : ∀ i : grid0.Coords, EltTy.bits .f32 = 32 ∨ (Rect.block (s := S256x96) S32x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256x96.size a ≤ S256x256x96.size a
  hwx0_2 : ∀ i : grid0.Coords, EltTy.bits .f32 = 32 ∨ (Rect.block (s := S256x256x96) S32x256x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2x256.size a < S2x2601.size a
  hwx0_3 : ∀ i : grid0.Coords, EltTy.bits .f32 = 32 ∨ (Rect.unit (s := S2x2601) (fun a => cc0_transform_3 i a * S2x256.size a) (fun a => (Pipeline.Clip.of (cc0_transform_3 i a) (S2x256.size a) (S2x2601.size a)).extent (S2x256.size a)) fun a => Pipeline.Clip.inb (Pipeline.Clip.ok_of (hstart0_3 i a))).WholeWords (EltTy.packing .f32)
  hwxs0_3 : ∀ i : grid0.Coords, EltTy.bits .f32 = 32 ∨ (Rect.unit (s := S2x256) (fun _ => 0) (fun a => (Pipeline.Clip.of (cc0_transform_3 i a) (S2x256.size a) (S2x2601.size a)).extent (S2x256.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S32x256x256.size a < S256x256x2601.size a
  hwx0_4 : ∀ i : grid0.Coords, EltTy.bits .f32 = 32 ∨ (Rect.unit (s := S256x256x2601) (fun a => cc0_transform_4 i a * S32x256x256.size a) (fun a => (Pipeline.Clip.of (cc0_transform_4 i a) (S32x256x256.size a) (S256x256x2601.size a)).extent (S32x256x256.size a)) fun a => Pipeline.Clip.inb (Pipeline.Clip.ok_of (hstart0_4 i a))).WholeWords (EltTy.packing .f32)
  hwxs0_4 : ∀ i : grid0.Coords, EltTy.bits .f32 = 32 ∨ (Rect.unit (s := S32x256x256) (fun _ => 0) (fun a => (Pipeline.Clip.of (cc0_transform_4 i a) (S32x256x256.size a) (S256x256x2601.size a)).extent (S32x256x256.size a)) fun a => (Nat.zero_add _).trans_le (Pipeline.Clip.extent_le (Pipeline.Clip.ok_of (hstart0_4 i a)))).WholeWords (EltTy.packing .f32)

variable [Facts₀]

def dot_S32x256x96_S32x96x256_S32x256x256_2_1_1_2_0_0 : DotDims S32x256x96 S32x96x256 S32x256x256 where
  lhsContracting := [2]
  rhsContracting := [1]
  lhsNonContracting := [1]
  rhsNonContracting := [2]
  lhsBatch := [0]
  rhsBatch := [0]
  wf := dot_S32x256x96_S32x96x256_S32x256x256_2_1_1_2_0_0_wf

abbrev win0_0 : Pipeline.Window sig grid0 :=
  Pipeline.Window.ofSpec (Memref.whole main_v5) S32x2x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S32x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x256x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpecClip (Memref.whole main_v3) S2x256.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v6) S32x256x256.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x2x51x51 : Shape := ⟨4, ![1, 2, 51, 51]⟩
abbrev S256x96x2 : Shape := ⟨3, ![256, 96, 2]⟩
abbrev S256x96x1x1 : Shape := ⟨4, ![256, 96, 1, 1]⟩
abbrev S256x256x96 : Shape := ⟨3, ![256, 256, 96]⟩
abbrev S2x2601 : Shape := ⟨2, ![2, 2601]⟩
abbrev S2601x2 : Shape := ⟨2, ![2601, 2]⟩
abbrev S256x96x1x2 : Shape := ⟨4, ![256, 96, 1, 2]⟩
abbrev S1x1x2601x2 : Shape := ⟨4, ![1, 1, 2601, 2]⟩
abbrev S256x96x2601x2 : Shape := ⟨4, ![256, 96, 2601, 2]⟩
abbrev S_ : Shape := ⟨0, ![]⟩
abbrev S256x96x2601 : Shape := ⟨3, ![256, 96, 2601]⟩
abbrev S256x96x1 : Shape := ⟨3, ![256, 96, 1]⟩
abbrev S256x2601 : Shape := ⟨2, ![256, 2601]⟩
abbrev S256x1x2601 : Shape := ⟨3, ![256, 1, 2601]⟩
abbrev S256x256x2601 : Shape := ⟨3, ![256, 256, 2601]⟩
abbrev S256x256x51x51 : Shape := ⟨4, ![256, 256, 51, 51]⟩

abbrev nBuf : Space → Nat
  | .hbm => 40
  | .vmem => 0
  | .smem => 0
  | _ => 0

abbrev bufTy : (tb : Table) → Fin (tcTables nBuf tb) → BufTy
  | .hbm, ⟨0, _⟩ => ⟨S1x2x51x51, .f32⟩
  | .hbm, ⟨1, _⟩ => ⟨S256x96x2, .f32⟩
  | .hbm, ⟨2, _⟩ => ⟨S256x96x1x1, .f32⟩
  | .hbm, ⟨3, _⟩ => ⟨S256x256x96, .f32⟩
  | .hbm, ⟨4, _⟩ => ⟨S2x2601, .f32⟩
  | .hbm, ⟨5, _⟩ => ⟨S2601x2, .f32⟩
  | .hbm, ⟨6, _⟩ => ⟨S256x96x1x2, .f32⟩
  | .hbm, ⟨7, _⟩ => ⟨S1x1x2601x2, .f32⟩
  | .hbm, ⟨8, _⟩ => ⟨S256x96x2601x2, .f32⟩
  | .hbm, ⟨9, _⟩ => ⟨S256x96x2601x2, .f32⟩
  | .hbm, ⟨10, _⟩ => ⟨S256x96x2601x2, .f32⟩
  | .hbm, ⟨11, _⟩ => ⟨S256x96x2601x2, .f32⟩
  | .hbm, ⟨12, _⟩ => ⟨S_, .f32⟩
  | .hbm, ⟨13, _⟩ => ⟨S256x96x2601, .f32⟩
  | .hbm, ⟨14, _⟩ => ⟨S256x96x1, .f32⟩
  | .hbm, ⟨15, _⟩ => ⟨S256x96x2601, .f32⟩
  | .hbm, ⟨16, _⟩ => ⟨S256x96x2601, .f32⟩
  | .hbm, ⟨17, _⟩ => ⟨S_, .f32⟩
  | .hbm, ⟨18, _⟩ => ⟨S256x96x2601, .f32⟩
  | .hbm, ⟨19, _⟩ => ⟨S256x96x2601, .f32⟩
  | .hbm, ⟨20, _⟩ => ⟨S_, .f32⟩
  | .hbm, ⟨21, _⟩ => ⟨S256x96x2601, .f32⟩
  | .hbm, ⟨22, _⟩ => ⟨S256x96x2601, .f32⟩
  | .hbm, ⟨23, _⟩ => ⟨S_, .f32⟩
  | .hbm, ⟨24, _⟩ => ⟨S256x96x2601, .f32⟩
  | .hbm, ⟨25, _⟩ => ⟨S256x96x2601, .i1⟩
  | .hbm, ⟨26, _⟩ => ⟨S256x96x2601, .i32⟩
  | .hbm, ⟨27, _⟩ => ⟨S_, .i32⟩
  | .hbm, ⟨28, _⟩ => ⟨S256x2601, .i32⟩
  | .hbm, ⟨29, _⟩ => ⟨S256x1x2601, .i32⟩
  | .hbm, ⟨30, _⟩ => ⟨S256x1x2601, .f32⟩
  | .hbm, ⟨31, _⟩ => ⟨S_, .f32⟩
  | .hbm, ⟨32, _⟩ => ⟨S256x1x2601, .f32⟩
  | .hbm, ⟨33, _⟩ => ⟨S256x1x2601, .f32⟩
  | .hbm, ⟨34, _⟩ => ⟨S256x96x2601, .f32⟩
  | .hbm, ⟨35, _⟩ => ⟨S256x96x2601, .f32⟩
  | .hbm, ⟨36, _⟩ => ⟨S256x256x2601, .f32⟩
  | .hbm, ⟨37, _⟩ => ⟨S256x256x51x51, .f32⟩
  | .hbm, ⟨38, _⟩ => ⟨S256x256x51x51, .f32⟩
  | .hbm, ⟨39, _⟩ => ⟨S256x256x51x51, .f32⟩
  | _, _ => ⟨S1x2x51x51, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  shapeCasts_S1x2x51x51_S2x2601 : S1x2x51x51.ShapeCasts S2x2601
  transposes_S2x2601_S2601x2_1_0 : S2x2601.Transposes [1, 0] S2601x2
  bcast_S256x96x2_S256x96x1x2_0_1_3 : S256x96x2.BroadcastsInDim S256x96x1x2 (![0, 1, 3] : Fin 3 → Fin S256x96x1x2.rank)
  bcast_S2601x2_S1x1x2601x2_2_3 : S2601x2.BroadcastsInDim S1x1x2601x2 (![2, 3] : Fin 2 → Fin S1x1x2601x2.rank)
  bcast_S256x96x1x2_S256x96x2601x2_0_1_2_3 : S256x96x1x2.BroadcastsInDim S256x96x2601x2 (![0, 1, 2, 3] : Fin 4 → Fin S256x96x2601x2.rank)
  bcast_S1x1x2601x2_S256x96x2601x2_0_1_2_3 : S1x1x2601x2.BroadcastsInDim S256x96x2601x2 (![0, 1, 2, 3] : Fin 4 → Fin S256x96x2601x2.rank)
  reducesTo_S256x96x2601x2_S256x96x2601_d3 : S256x96x2601x2.ReducesTo [3] S256x96x2601
  h_S_ : 0 < S_.numel
  shapeCasts_S256x96x1x1_S256x96x1 : S256x96x1x1.ShapeCasts S256x96x1
  bcast_S256x96x1_S256x96x2601_0_1_2 : S256x96x1.BroadcastsInDim S256x96x2601 (![0, 1, 2] : Fin 3 → Fin S256x96x2601.rank)
  bcast_S_S256x96x2601 : S_.BroadcastsInDim S256x96x2601 (![] : Fin 0 → Fin S256x96x2601.rank)
  natLt_1_32 : 1 < 32
  reducesTo_S256x96x2601_S256x2601_d1 : S256x96x2601.ReducesTo [1] S256x2601
  bcast_S256x2601_S256x1x2601_0_2 : S256x2601.BroadcastsInDim S256x1x2601 (![0, 2] : Fin 2 → Fin S256x1x2601.rank)
  bcast_S_S256x1x2601 : S_.BroadcastsInDim S256x1x2601 (![] : Fin 0 → Fin S256x1x2601.rank)
  bcast_S256x1x2601_S256x96x2601_0_1_2 : S256x1x2601.BroadcastsInDim S256x96x2601 (![0, 1, 2] : Fin 3 → Fin S256x96x2601.rank)
  shapeCasts_S256x256x2601_S256x256x51x51 : S256x256x2601.ShapeCasts S256x256x51x51
  transposes_S256x256x51x51_S256x256x51x51_0_1_3_2 : S256x256x51x51.Transposes [0, 1, 3, 2] S256x256x51x51
  dot_S256x256x96_S256x96x2601_S256x256x2601_2_1_1_2_0_0_wf : DotDims.WF S256x256x96 S256x96x2601 S256x256x2601 [2] [1] [1] [2] [0] [0]

variable [Facts₀]

def dot_S256x256x96_S256x96x2601_S256x256x2601_2_1_1_2_0_0 : DotDims S256x256x96 S256x96x2601 S256x256x2601 where
  lhsContracting := [2]
  rhsContracting := [1]
  lhsNonContracting := [1]
  rhsNonContracting := [2]
  lhsBatch := [0]
  rhsBatch := [0]
  wf := dot_S256x256x96_S256x96x2601_S256x256x2601_2_1_1_2_0_0_wf

class Facts : Prop extends Facts₀ where

variable [Facts]
-- ==== Proof.BitsBody.lean ====
/-
  The kernel body as a triple, at any float instance.

  One grid point of the kernel reads four staging buffers whole — the point coordinates' block (32 output channels
  by 2 coordinates by 96 points), the radii's block (32 by 96), the point weights' block (32 by 256 by 96) and a
  block of 256 grid locations' coordinates (2 by 256) — and stores one value over the whole result buffer
  (32 by 256 by 256): the weights contracted over the 96 points against the normalised triangular basis.
  Nothing else is written. So from the four input buffers at any contents and the result buffer at any contents,
  the body returns the inputs as they were and the result buffer at `blockOut` of the four.
-/
import proofs.«144877_j24730421691146_1_alg».proof.Proof.Gen.Kernel.Frame
import proofs.«144877_j24730421691146_1_alg».proof.Proof.Gen.Kernel.Skeleton
import Idealize.ShloMosaic.Lib.Pipeline.FrameBody
import Idealize.ShloMosaic.Lib.Tactic

set_option maxRecDepth 16384

noncomputable section

namespace Cert.Kernel.Hand

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The five whole-buffer rectangles -/

abbrev rCoordW : Rect S32x2x96 := Rect.unit (s := S32x2x96) ![0, 0, 0] S32x2x96.size Gen.inb_S32x2x96_S32x2x96_0_0_0
abbrev rRad : Rect S32x96 := Rect.unit (s := S32x96) ![0, 0] S32x96.size Gen.inb_S32x96_S32x96_0_0
abbrev rWts : Rect S32x256x96 := Rect.unit (s := S32x256x96) ![0, 0, 0] S32x256x96.size Gen.inb_S32x256x96_S32x256x96_0_0_0
abbrev rLoc : Rect S2x256 := Rect.unit (s := S2x256) ![0, 0] S2x256.size Gen.inb_S2x256_S2x256_0_0
abbrev rOut : Rect S32x256x256 := Rect.unit (s := S32x256x256) ![0, 0, 0] S32x256x256.size Gen.inb_S32x256x256_S32x256x256_0_0_0

/-- What the result buffer holds after the body, from the four input buffers: its one store as a piece. -/
def blockOut (x0 : Vec F S32x2x96 .f32) (x1 : Vec F S32x96 .f32) (x2 : Vec F S32x256x96 .f32) (x3 : Vec F S2x256 .f32) :
    Vec F S32x256x256 .f32 :=
  View.canon [⟨rOut, k0_pay1 (k0_pay2 (View.ld x0 rCoordW) (View.ld x3 rLoc) (View.ld x1 rRad)) (View.ld x2 rWts)⟩]

/-- The one store tiles the result buffer, so it covers it. -/
theorem cover_out (p0 : Vec F S32x256x256 .f32) (y : S32x256x256.Idx) :
    ∃ pc ∈ ([⟨rOut, p0⟩] : List (View.Piece (Elt F) S32x256x256 .f32)), y ∈ pc.1.set :=
  View.cover_of_tiled [⟨rOut, p0⟩] S32x256x256.size (by rfl) y

set_option maxHeartbeats 2000000 in
/-- The body's triple: the inputs come back as they were, the result buffer at `blockOut`. -/
theorem body_triple (c : Dev nD) (E : Set ℕ) (i : grid0.Coords)
    (arg2 : Memref sig .tc .vmem S32x2x96 .f32) (harg2 : arg2.IsWhole) (arg3 : Memref sig .tc .vmem S32x96 .f32) (harg3 : arg3.IsWhole)
    (arg4 : Memref sig .tc .vmem S32x256x96 .f32) (harg4 : arg4.IsWhole) (arg5 : Memref sig .tc .vmem S2x256 .f32) (harg5 : arg5.IsWhole)
    (arg6 : Memref sig .tc .vmem S32x256x256 .f32) (harg6 : arg6.IsWhole)
    (x0 : Vec F S32x2x96 .f32) (x1 : Vec F S32x96 .f32) (x2 : Vec F S32x256x96 .f32) (x3 : Vec F S2x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (blockOut x0 x1 x2 x3)) -∗ K ⟨⟩))
      ⊢ wp frame (wpE (defs₀ (F := F)) Variants.none c none) E (cc0__smp_kernel i arg2 harg2 arg3 harg3 arg4 harg4 arg5 harg5 arg6 harg6) K := by
  simp only [cc0__smp_kernel_eq_skeleton]; unfold cc0__smp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.Kernel.Hand

end
-- ==== Proof.BitsData.lean ====
/-
  The proof data of the one pipeline, and what each staging buffer holds around the body.

  The grid has 8 x 11 points. The coordinates' window (2 by 256 locations per block) and the result's window
  (32 by 256 by 256 per block) run along an axis of 2601 locations in 11 blocks of 256: the last block overhangs
  the array by 215 locations. A fetch of an overhanging block leaves, past the array's end, words nothing names;
  the body computes on them too, and the write-back moves only the part inside the array. Each result location
  depends on the coordinates of that same location only, so the part inside the array of what the body leaves is
  determined by the parts inside the array of what it was handed — stated here as the hypothesis `Indep`, which a
  float instance proves of its own operations, and which the frame alone does not need: for the frame the result
  window's contents are left unnamed.
-/
import proofs.«144877_j24730421691146_1_alg».proof.Proof.BitsBody
import proofs.«144877_j24730421691146_1_alg».proof.Proof.Gen.Kernel.Points
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The zero word: the filler the proof data names past the array's end, where nothing is read back. -/
abbrev zeroFill : S2x256.Idx → Elt F .f32 := fun _ => Scalar.ofBits .f32 0#32

/-- The locations' block at point `t` filled out to the buffer's 256 columns with `d` past the array's end. -/
def locBlock (c : Dev nD) (t : Fin cfg0.N) (d : S2x256.Idx → Elt F .f32) : S2x256.Idx → Elt F .f32 :=
  win0_3.fill (grid0.coords t) d (iblk m c 3 t)

/-- What the body leaves in the result buffer at point `t` when the locations' buffer is filled out with `d`. -/
def outBlock (c : Dev nD) (t : Fin cfg0.N) (d : S2x256.Idx → Elt F .f32) : S32x256x256.Idx → Elt F .f32 :=
  blockOut (iblk m c 0 t) (iblk m c 1 t) (iblk m c 2 t) (locBlock m c t d)

/-- The arrays as the region finds them; after the body each input's buffer at its block (the locations' filled out
    with zeros) and the result's at the body's value of those; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => locBlock m c t zeroFill
    | ⟨4, _⟩ => outBlock m c t zeroFill
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = locBlock m c t zeroFill := by dsimp only [dats]
theorem after_4 (c : Dev nD) (t : Fin cfg0.N) : (dats m 0 c).after 4 t = outBlock m c t zeroFill := by dsimp only [dats]

/-- The three tiling inputs are found at their blocks, fetched at the point or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
/-- The locations' window is fetched at every point: its buffer holds the block, and `d` past the array's end. -/
theorem before_3 (c : Dev nD) (t : Fin cfg0.N) (d) : (dats m 0 c).before 3 t d = locBlock m c t d := by
  unfold Dat.before; rw [if_pos (fetch0_3 t)]; rfl

/-! ## The body obligation -/

/-- The result window is the one the frame leaves unnamed. -/
def forgets : Fin 5 → Bool := fun w => w.val == 4

/-- Filling out the locations' block again after cutting the zero-filled buffer back gives the block filled out afresh. -/
theorem fill_cut_loc (c : Dev nD) (t : Fin cfg0.N) (d : S2x256.Idx → Elt F .f32) :
    (win0 3).fill (grid0.coords t) d ((win0 3).cut (grid0.coords t) (locBlock m c t zeroFill)) = locBlock m c t d := by
  unfold locBlock
  rw [show (win0 3).cut (grid0.coords t) (win0_3.fill (grid0.coords t) zeroFill (iblk m c 3 t)) = iblk m c 3 t from
    win0_3.cut_fill _ _ _]

/-- The obligation with the result window unnamed: the body is handed the four input buffers at their blocks (the
    locations' filled out with whatever the fetch left) and the result buffer at anything, and hands them back, the
    result buffer at something. -/
theorem body_obligation_fgt (c : Dev nD) :
    BodyObligationLoose (dats (F := F) m 0 c) (defs₀ (F := F)) Variants.none () Set.univ forgets := fun t => by
  rw [bigSep_W0, bigSep_W0]
  simp only [forgets, show (((0 : Fin 5) : Nat) == 4) = false from rfl, show (((1 : Fin 5) : Nat) == 4) = false from rfl,
    show (((2 : Fin 5) : Nat) == 4) = false from rfl, show (((3 : Fin 5) : Nat) == 4) = false from rfl,
    show (((4 : Fin 5) : Nat) == 4) = true from rfl]
  rw [show (dats m 0 c).Φ t.succ = (dats m 0 c).Φ t.castSucc from rfl,
    show (dats m 0 c).owesAt () t.succ = (dats m 0 c).owesAt () t.castSucc from rfl]
  simp only [before_0, before_1, before_2, before_3, after_0, after_1, after_2, after_3]
  change _ ⊢ wp frame (wpE (defs₀ (F := F)) Variants.none c none) Set.univ (bodyAt0 t) _
  unfold bodyAt0
  iintro ⟨HΦ, Ho, ⟨%d0, H0⟩, ⟨%d1, H1⟩, ⟨%d2, H2⟩, ⟨%d3, H3⟩, ⟨%X4, H4⟩⟩
  have e3 := fill_cut_loc m c t d3
  iapply (body_triple (F := F) c Set.univ (grid0.coords t) _ _ _ _ _ _ _ _ _ _
    (iblk m c 0 t) (iblk m c 1 t) (iblk m c 2 t) (locBlock m c t d3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]
  · iexists d3
    rw [e3]
    iexact H3
  · iexists _; iexact H4

/-- Column independence: the part inside the array of what the body leaves does not depend on what fills out the
    locations' buffer past the array's end. -/
def Indep (m : (ℓ : Loc nD τ sig) → Buf (Elt F) ℓ) : Prop :=
  ∀ (c : Dev nD) (t : Fin cfg0.N) (d : S2x256.Idx → Elt F .f32),
    (win0 4).cut (grid0.coords t) (outBlock m c t d) = (win0 4).cut (grid0.coords t) (outBlock m c t zeroFill)

/-- The obligation with every window named, given column independence. -/
theorem body_obligation_named (hI : Indep m) (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  simp only [before_0, before_1, before_2, before_3, after_0, after_1, after_2, after_3, after_4]
  change _ ⊢ wp frame (wpE (defs₀ (F := F)) Variants.none c none) Set.univ (bodyAt0 t) _
  unfold bodyAt0
  iintro ⟨HΦ, Ho, ⟨%d0, H0⟩, ⟨%d1, H1⟩, ⟨%d2, H2⟩, ⟨%d3, H3⟩, ⟨%d4, H4⟩⟩
  have e3 := fill_cut_loc m c t d3
  have e : (win0 4).fill (grid0.coords t) (outBlock m c t d3) ((win0 4).cut (grid0.coords t) (outBlock m c t zeroFill))
      = outBlock m c t d3 := by rw [← hI c t d3, (win0 4).fill_cut]
  iapply (body_triple (F := F) c Set.univ (grid0.coords t) _ _ _ _ _ _ _ _ _ _
    (iblk m c 0 t) (iblk m c 1 t) (iblk m c 2 t) (locBlock m c t d3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]
  · iexists d3
    rw [e3]
    iexact H3
  · iexists outBlock m c t d3
    rw [e]
    iexact H4

end Cert.Kernel.Hand

end
-- ==== Proof.BitsFrame.lean ====
/-
  The frame of the program, at any float instance: every weakly fair execution of @main terminates, nothing faults,
  and the four argument arrays end as launched.

  The run is launched with the result window's contents left unnamed — the frame reads nothing of them — so the
  body's obligation is the one that needs no fact about the float operations. Of the buffer the line after the
  region writes (the result reshaped to its four axes) nothing is stated either. The three argument arrays no window
  stages are read off the post's clause for the buffers that bypass the pipeline; the point weights, which window 2
  stages, off that input window's array, which no write-back touches.
-/
import proofs.«144877_j24730421691146_1_alg».proof.Proof.BitsData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The buffer the line after the region writes: the result in its four axes. -/
def tailWrites : Finset (Ref sig .tc) := {main_v7}

theorem sfx_writes : ∀ ops ∈ ([hostOps1] : List (List (HloOp τ sig (Elt F)))), ∀ op ∈ ops,
    ∀ b : Ref sig .tc, Proc.devRef .tc b ∈ op.writes → b ∈ tailWrites := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
/-- The run with the result window unnamed: every input array of the pipeline ends unchanged and every buffer that
    bypasses the pipeline, but the one the last line writes, at its contents at the region's entry. -/
theorem run_frame : θ_run defs (onTc (τ := τ) (main (F := F))) (s₀ m ρ)
    (Pipeline.RDat.FramePostR (cfgs 0) (fun c => (dats m 0 c).toRForget forgets) tailWrites (V m)) :=
  Pipeline.RDat.θ_run_frame_around_T cfgs (0 : Fin 1) launch0 defs₀ Variants.none (fun c => (dats m 0 c).toRForget forgets) tailWrites m ρ main
    (hbody := fun c => (body_obligation_fgt m c).toRForget) (hshare := fun c => ((dats m 0 c).toRForget forgets).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c),
     (Eq.mp (congrFun (((dats m 0 c).toRForget forgets).ArrAt_in 2 rfl _) _) ((h c).1 2)).trans ((A_eq m c 2).trans (V_main_arg3 m c))⟩)
    (run_frame m ρ)

end Cert.Kernel.Hand

end
-- ==== Proof.IdealBody.lean ====
/-
  The kernel body as a triple, at any float instance.

  One grid point of the kernel reads four staging buffers whole — the point coordinates' block (32 output channels
  by 2 coordinates by 96 points), the radii's block (32 by 96), the point weights' block (32 by 256 by 96) and a
  block of 256 grid locations' coordinates (2 by 256) — and stores one value over the whole result buffer
  (32 by 256 by 256): the weights contracted over the 96 points against the normalised triangular basis.
  Nothing else is written. So from the four input buffers at any contents and the result buffer at any contents,
  the body returns the inputs as they were and the result buffer at `blockOut` of the four.
-/
import proofs.«144877_j24730421691146_1_alg».proof.Proof.Gen.KernelIdeal.Frame
import proofs.«144877_j24730421691146_1_alg».proof.Proof.Gen.KernelIdeal.Skeleton
import Idealize.ShloMosaic.Lib.Pipeline.FrameBody
import Idealize.ShloMosaic.Lib.Tactic

set_option maxRecDepth 16384

noncomputable section

namespace Cert.KernelIdeal.Hand

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The five whole-buffer rectangles -/

abbrev rCoordW : Rect S32x2x96 := Rect.unit (s := S32x2x96) ![0, 0, 0] S32x2x96.size Gen.inb_S32x2x96_S32x2x96_0_0_0
abbrev rRad : Rect S32x96 := Rect.unit (s := S32x96) ![0, 0] S32x96.size Gen.inb_S32x96_S32x96_0_0
abbrev rWts : Rect S32x256x96 := Rect.unit (s := S32x256x96) ![0, 0, 0] S32x256x96.size Gen.inb_S32x256x96_S32x256x96_0_0_0
abbrev rLoc : Rect S2x256 := Rect.unit (s := S2x256) ![0, 0] S2x256.size Gen.inb_S2x256_S2x256_0_0
abbrev rOut : Rect S32x256x256 := Rect.unit (s := S32x256x256) ![0, 0, 0] S32x256x256.size Gen.inb_S32x256x256_S32x256x256_0_0_0

/-- What the result buffer holds after the body, from the four input buffers: its one store as a piece. -/
def blockOut (x0 : Vec F S32x2x96 .f32) (x1 : Vec F S32x96 .f32) (x2 : Vec F S32x256x96 .f32) (x3 : Vec F S2x256 .f32) :
    Vec F S32x256x256 .f32 :=
  View.canon [⟨rOut, k0_pay1 (k0_pay2 (View.ld x0 rCoordW) (View.ld x3 rLoc) (View.ld x1 rRad)) (View.ld x2 rWts)⟩]

/-- The one store tiles the result buffer, so it covers it. -/
theorem cover_out (p0 : Vec F S32x256x256 .f32) (y : S32x256x256.Idx) :
    ∃ pc ∈ ([⟨rOut, p0⟩] : List (View.Piece (Elt F) S32x256x256 .f32)), y ∈ pc.1.set :=
  View.cover_of_tiled [⟨rOut, p0⟩] S32x256x256.size (by rfl) y

set_option maxHeartbeats 2000000 in
/-- The body's triple: the inputs come back as they were, the result buffer at `blockOut`. -/
theorem body_triple (c : Dev nD) (E : Set ℕ) (i : grid0.Coords)
    (arg2 : Memref sig .tc .vmem S32x2x96 .f32) (harg2 : arg2.IsWhole) (arg3 : Memref sig .tc .vmem S32x96 .f32) (harg3 : arg3.IsWhole)
    (arg4 : Memref sig .tc .vmem S32x256x96 .f32) (harg4 : arg4.IsWhole) (arg5 : Memref sig .tc .vmem S2x256 .f32) (harg5 : arg5.IsWhole)
    (arg6 : Memref sig .tc .vmem S32x256x256 .f32) (harg6 : arg6.IsWhole)
    (x0 : Vec F S32x2x96 .f32) (x1 : Vec F S32x96 .f32) (x2 : Vec F S32x256x96 .f32) (x3 : Vec F S2x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (blockOut x0 x1 x2 x3)) -∗ K ⟨⟩))
      ⊢ wp frame (wpE (defs₀ (F := F)) Variants.none c none) E (cc0__smp_kernel i arg2 harg2 arg3 harg3 arg4 harg4 arg5 harg5 arg6 harg6) K := by
  simp only [cc0__smp_kernel_eq_skeleton]; unfold cc0__smp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.KernelIdeal.Hand

end
-- ==== Proof.IdealData.lean ====
/-
  The proof data of the one pipeline, and what each staging buffer holds around the body.

  The grid has 8 x 11 points. The coordinates' window (2 by 256 locations per block) and the result's window
  (32 by 256 by 256 per block) run along an axis of 2601 locations in 11 blocks of 256: the last block overhangs
  the array by 215 locations. A fetch of an overhanging block leaves, past the array's end, words nothing names;
  the body computes on them too, and the write-back moves only the part inside the array. Each result location
  depends on the coordinates of that same location only, so the part inside the array of what the body leaves is
  determined by the parts inside the array of what it was handed — stated here as the hypothesis `Indep`, which a
  float instance proves of its own operations, and which the frame alone does not need: for the frame the result
  window's contents are left unnamed.
-/
import proofs.«144877_j24730421691146_1_alg».proof.Proof.IdealBody
import proofs.«144877_j24730421691146_1_alg».proof.Proof.Gen.KernelIdeal.Points
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The zero word: the filler the proof data names past the array's end, where nothing is read back. -/
abbrev zeroFill : S2x256.Idx → Elt F .f32 := fun _ => Scalar.ofBits .f32 0#32

/-- The locations' block at point `t` filled out to the buffer's 256 columns with `d` past the array's end. -/
def locBlock (c : Dev nD) (t : Fin cfg0.N) (d : S2x256.Idx → Elt F .f32) : S2x256.Idx → Elt F .f32 :=
  win0_3.fill (grid0.coords t) d (iblk m c 3 t)

/-- What the body leaves in the result buffer at point `t` when the locations' buffer is filled out with `d`. -/
def outBlock (c : Dev nD) (t : Fin cfg0.N) (d : S2x256.Idx → Elt F .f32) : S32x256x256.Idx → Elt F .f32 :=
  blockOut (iblk m c 0 t) (iblk m c 1 t) (iblk m c 2 t) (locBlock m c t d)

/-- The arrays as the region finds them; after the body each input's buffer at its block (the locations' filled out
    with zeros) and the result's at the body's value of those; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => locBlock m c t zeroFill
    | ⟨4, _⟩ => outBlock m c t zeroFill
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = locBlock m c t zeroFill := by dsimp only [dats]
theorem after_4 (c : Dev nD) (t : Fin cfg0.N) : (dats m 0 c).after 4 t = outBlock m c t zeroFill := by dsimp only [dats]

/-- The three tiling inputs are found at their blocks, fetched at the point or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
/-- The locations' window is fetched at every point: its buffer holds the block, and `d` past the array's end. -/
theorem before_3 (c : Dev nD) (t : Fin cfg0.N) (d) : (dats m 0 c).before 3 t d = locBlock m c t d := by
  unfold Dat.before; rw [if_pos (fetch0_3 t)]; rfl

/-! ## The body obligation -/

/-- The result window is the one the frame leaves unnamed. -/
def forgets : Fin 5 → Bool := fun w => w.val == 4

/-- Filling out the locations' block again after cutting the zero-filled buffer back gives the block filled out afresh. -/
theorem fill_cut_loc (c : Dev nD) (t : Fin cfg0.N) (d : S2x256.Idx → Elt F .f32) :
    (win0 3).fill (grid0.coords t) d ((win0 3).cut (grid0.coords t) (locBlock m c t zeroFill)) = locBlock m c t d := by
  unfold locBlock
  rw [show (win0 3).cut (grid0.coords t) (win0_3.fill (grid0.coords t) zeroFill (iblk m c 3 t)) = iblk m c 3 t from
    win0_3.cut_fill _ _ _]

/-- The obligation with the result window unnamed: the body is handed the four input buffers at their blocks (the
    locations' filled out with whatever the fetch left) and the result buffer at anything, and hands them back, the
    result buffer at something. -/
theorem body_obligation_fgt (c : Dev nD) :
    BodyObligationLoose (dats (F := F) m 0 c) (defs₀ (F := F)) Variants.none () Set.univ forgets := fun t => by
  rw [bigSep_W0, bigSep_W0]
  simp only [forgets, show (((0 : Fin 5) : Nat) == 4) = false from rfl, show (((1 : Fin 5) : Nat) == 4) = false from rfl,
    show (((2 : Fin 5) : Nat) == 4) = false from rfl, show (((3 : Fin 5) : Nat) == 4) = false from rfl,
    show (((4 : Fin 5) : Nat) == 4) = true from rfl]
  rw [show (dats m 0 c).Φ t.succ = (dats m 0 c).Φ t.castSucc from rfl,
    show (dats m 0 c).owesAt () t.succ = (dats m 0 c).owesAt () t.castSucc from rfl]
  simp only [before_0, before_1, before_2, before_3, after_0, after_1, after_2, after_3]
  change _ ⊢ wp frame (wpE (defs₀ (F := F)) Variants.none c none) Set.univ (bodyAt0 t) _
  unfold bodyAt0
  iintro ⟨HΦ, Ho, ⟨%d0, H0⟩, ⟨%d1, H1⟩, ⟨%d2, H2⟩, ⟨%d3, H3⟩, ⟨%X4, H4⟩⟩
  have e3 := fill_cut_loc m c t d3
  iapply (body_triple (F := F) c Set.univ (grid0.coords t) _ _ _ _ _ _ _ _ _ _
    (iblk m c 0 t) (iblk m c 1 t) (iblk m c 2 t) (locBlock m c t d3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]
  · iexists d3
    rw [e3]
    iexact H3
  · iexists _; iexact H4

/-- Column independence: the part inside the array of what the body leaves does not depend on what fills out the
    locations' buffer past the array's end. -/
def Indep (m : (ℓ : Loc nD τ sig) → Buf (Elt F) ℓ) : Prop :=
  ∀ (c : Dev nD) (t : Fin cfg0.N) (d : S2x256.Idx → Elt F .f32),
    (win0 4).cut (grid0.coords t) (outBlock m c t d) = (win0 4).cut (grid0.coords t) (outBlock m c t zeroFill)

/-- The obligation with every window named, given column independence. -/
theorem body_obligation_named (hI : Indep m) (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  simp only [before_0, before_1, before_2, before_3, after_0, after_1, after_2, after_3, after_4]
  change _ ⊢ wp frame (wpE (defs₀ (F := F)) Variants.none c none) Set.univ (bodyAt0 t) _
  unfold bodyAt0
  iintro ⟨HΦ, Ho, ⟨%d0, H0⟩, ⟨%d1, H1⟩, ⟨%d2, H2⟩, ⟨%d3, H3⟩, ⟨%d4, H4⟩⟩
  have e3 := fill_cut_loc m c t d3
  have e : (win0 4).fill (grid0.coords t) (outBlock m c t d3) ((win0 4).cut (grid0.coords t) (outBlock m c t zeroFill))
      = outBlock m c t d3 := by rw [← hI c t d3, (win0 4).fill_cut]
  iapply (body_triple (F := F) c Set.univ (grid0.coords t) _ _ _ _ _ _ _ _ _ _
    (iblk m c 0 t) (iblk m c 1 t) (iblk m c 2 t) (locBlock m c t d3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]
  · iexists d3
    rw [e3]
    iexact H3
  · iexists outBlock m c t d3
    rw [e]
    iexact H4

end Cert.KernelIdeal.Hand

end
-- ==== Proof.IdealFrame.lean ====
/-
  The frame of the program, at any float instance: every weakly fair execution of @main terminates, nothing faults,
  and the four argument arrays end as launched.

  The run is launched with the result window's contents left unnamed — the frame reads nothing of them — so the
  body's obligation is the one that needs no fact about the float operations. Of the buffer the line after the
  region writes (the result reshaped to its four axes) nothing is stated either. The three argument arrays no window
  stages are read off the post's clause for the buffers that bypass the pipeline; the point weights, which window 2
  stages, off that input window's array, which no write-back touches.
-/
import proofs.«144877_j24730421691146_1_alg».proof.Proof.IdealData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The buffer the line after the region writes: the result in its four axes. -/
def tailWrites : Finset (Ref sig .tc) := {main_v7}

theorem sfx_writes : ∀ ops ∈ ([hostOps1] : List (List (HloOp τ sig (Elt F)))), ∀ op ∈ ops,
    ∀ b : Ref sig .tc, Proc.devRef .tc b ∈ op.writes → b ∈ tailWrites := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
/-- The run with the result window unnamed: every input array of the pipeline ends unchanged and every buffer that
    bypasses the pipeline, but the one the last line writes, at its contents at the region's entry. -/
theorem run_frame : θ_run defs (onTc (τ := τ) (main (F := F))) (s₀ m ρ)
    (Pipeline.RDat.FramePostR (cfgs 0) (fun c => (dats m 0 c).toRForget forgets) tailWrites (V m)) :=
  Pipeline.RDat.θ_run_frame_around_T cfgs (0 : Fin 1) launch0 defs₀ Variants.none (fun c => (dats m 0 c).toRForget forgets) tailWrites m ρ main
    (hbody := fun c => (body_obligation_fgt m c).toRForget) (hshare := fun c => ((dats m 0 c).toRForget forgets).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c),
     (Eq.mp (congrFun (((dats m 0 c).toRForget forgets).ArrAt_in 2 rfl _) _) ((h c).1 2)).trans ((A_eq m c 2).trans (V_main_arg3 m c))⟩)
    (run_frame m ρ)

end Cert.KernelIdeal.Hand

end
-- ==== Proof.LibKeepdims3.lean ====
/-
  Keepdims forms in three axes, read at an index.

  A two-axis array `[a, b]` given a trailing unit axis and broadcast along it to `[a, b, c]` reads, at `(i, j, k)`,
  the array at `(i, j)`; a vector `[c]` given two leading unit axes and broadcast to `[a, b, c]` reads the vector at
  `k`; a `[a, c]` array given a middle unit axis reads, at `(i, 0, k)`, the array at `(i, k)`, and a `[a, 1, c]`
  array broadcast along the middle axis reads, at `(i, j, k)`, the array at `(i, 0, k)`. One row of a two-row array,
  sliced out and cast to a vector, reads the array at that row; one middle coordinate of an `[a, 2, b]` array, sliced
  out and cast to `[a, b]`, reads the array at that coordinate. A sum over the middle axis of an `[a, b, c]` array,
  at the ideal values, is the sum over `j` of the array at `(i, j, k)`.
-/
import Idealize.ShloMosaic.Lib.ValueIdx
import Idealize.ShloMosaic.Lib.Pipeline.Value
import Idealize.ShloMosaic.PureOps.Ideal.Laws

noncomputable section

namespace Cert.LibKeepdims3

open Idealize.ShloMosaic Idealize.ShloMosaic.ValueIdx

variable {α : Type}

/-- `[a, b]` → `[a, b, 1]` → `[a, b, c]` at `(i, j, k)` is the array at `(i, j)`. -/
theorem col_bcast_apply {a b c : ℕ} (v : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ v h1) h2 (ix3 i j k) = v (ix2 i j) := by
  refine (broadcastTo_apply _ h2 (ix3 i j k) (ix3 i j (0 : Fin 1)) fun ax => ?_).trans
    (shapeCast_apply v h1 (ix3 i j (0 : Fin 1)) (ix2 i j) ?_)
  · match ax with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => rfl
  · rw [Shape.rowMajor_val_two, Shape.rowMajor_val_three]
    show i.val * b + j.val = (i.val * b + j.val) * 1 + 0
    omega

/-- `[c]` → `[1, 1, c]` → `[a, b, c]` at `(i, j, k)` is the vector at `k`. -/
theorem row_bcast_apply {a b c : ℕ} (u : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (i : Fin a) (j : Fin b) (k : Fin c) :
    broadcastTo ⟨3, ![a, b, c]⟩ (shapeCast ⟨3, ![1, 1, c]⟩ u h1) h2 (ix3 i j k)
      = u (ix1 k) := by
  have hk : ∀ ax : Fin 3, ((if c = 1 then ix3 (0 : Fin 1) (0 : Fin 1) (⟨0, by have := k.isLt; omega⟩ : Fin c) else ix3 (0 : Fin 1) (0 : Fin 1) k) ax).val
      = if (⟨3, ![1, 1, c]⟩ : Shape).size ax = 1 then 0 else (ix3 i j k ⟨ax.val + (3 - 3), by have := ax.isLt; omega⟩).val := by
    intro ax
    match ax with
    | ⟨0, _⟩ => split <;> rfl
    | ⟨1, _⟩ => split <;> rfl
    | ⟨2, _⟩ =>
      show ((if c = 1 then ix3 (0 : Fin 1) (0 : Fin 1) (⟨0, _⟩ : Fin c) else ix3 (0 : Fin 1) (0 : Fin 1) k) (2 : Fin 3)).val = if c = 1 then 0 else k.val
      split <;> rfl
  refine (broadcastTo_apply _ h2 (ix3 i j k) _ hk).trans (shapeCast_apply u h1 _ (ix1 k) ?_)
  rw [Shape.rowMajor_val_one, Shape.rowMajor_val_three]
  split
  · rename_i hc
    show k.val = ((0 : Fin 1).val * 1 + (0 : Fin 1).val) * c + 0
    have := k.isLt; simp; omega
  · show k.val = ((0 : Fin 1).val * 1 + (0 : Fin 1).val) * c + k.val
    simp

/-- `[a, c]` → `[a, 1, c]` at `(i, 0, k)` is the array at `(i, k)`. -/
theorem mid_cast_apply {a c : ℕ} (v : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ v h (ix3 i u k) = v (ix2 i k) :=
  shapeCast_apply v h _ _ (by
    have hu : u.val = 0 := by omega
    rw [Shape.rowMajor_val_two, Shape.rowMajor_val_three]
    show i.val * c + k.val = (i.val * 1 + u.val) * c + k.val
    rw [hu]; simp)

/-- `[a, 1, c]` → `[a, b, c]` at `(i, j, k)` is the array at `(i, 0, k)`. -/
theorem mid_bcast_apply {a b c : ℕ} (s : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ s h (ix3 i j k) = s (ix3 i (0 : Fin 1) k) := by
  refine broadcastTo_apply s h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- Row `d` of an `[r, c]` array, sliced out as `[1, c]` and cast to `[c]`, at `k` is the array at `(d, k)`. -/
theorem row_slice_apply {r c : ℕ} (x : (⟨2, ![r, c]⟩ : Shape).Idx → α) (d : Fin r)
    (h1 : (⟨2, ![r, c]⟩ : Shape).Slices ![d.val, 0] ⟨2, ![1, c]⟩) (h2 : (⟨2, ![1, c]⟩ : Shape).ShapeCasts ⟨1, ![c]⟩) (k : Fin c) :
    shapeCast ⟨1, ![c]⟩ (extractStridedSlice ⟨2, ![1, c]⟩ ![d.val, 0] x h1) h2 (ix1 k) = x (ix2 d k) := by
  refine (shapeCast_apply _ h2 (ix1 k) (ix2 (0 : Fin 1) k) ?_).trans
    (extractStridedSlice_apply _ x h1 (ix2 (0 : Fin 1) k) (ix2 d k) fun ax => ?_)
  · rw [Shape.rowMajor_val_two, Shape.rowMajor_val_one]
    show (0 : Fin 1).val * c + k.val = k.val
    simp
  · match ax with
    | ⟨0, _⟩ => show d.val = d.val + (0 : Fin 1).val; simp
    | ⟨1, _⟩ => show k.val = 0 + k.val; simp

/-- Coordinate `d` of an `[a, e, b]` array, sliced out as `[a, 1, b]` and cast to `[a, b]`, at `(i, j)` is the array at
    `(i, d, j)`. -/
theorem coord_slice_apply {a e b : ℕ} (v : (⟨3, ![a, e, b]⟩ : Shape).Idx → α) (d : Fin e)
    (h1 : (⟨3, ![a, e, b]⟩ : Shape).Slices ![0, d.val, 0] ⟨3, ![a, 1, b]⟩) (h2 : (⟨3, ![a, 1, b]⟩ : Shape).ShapeCasts ⟨2, ![a, b]⟩)
    (i : Fin a) (j : Fin b) :
    shapeCast ⟨2, ![a, b]⟩ (extractStridedSlice ⟨3, ![a, 1, b]⟩ ![0, d.val, 0] v h1) h2 (ix2 i j) = v (ix3 i d j) := by
  refine (shapeCast_apply _ h2 (ix2 i j) (ix3 i (0 : Fin 1) j) ?_).trans
    (extractStridedSlice_apply _ v h1 (ix3 i (0 : Fin 1) j) (ix3 i d j) fun ax => ?_)
  · rw [Shape.rowMajor_val_three, Shape.rowMajor_val_two]
    show (i.val * 1 + (0 : Fin 1).val) * b + j.val = i.val * b + j.val
    simp
  · match ax with
    | ⟨0, _⟩ => show i.val = 0 + i.val; simp
    | ⟨1, _⟩ => show d.val = d.val + (0 : Fin 1).val; simp
    | ⟨2, _⟩ => show j.val = 0 + j.val; simp

/-- At the ideal values a sum over the middle axis of an `[a, b, c]` array at `(i, k)` is the sum over `j` of the array
    at `(i, j, k)`. -/
theorem sum_mid_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  rw [Ideal.multiReduction_add_single src acc h hφ hacc (ix2 i k)]
  refine Finset.sum_congr rfl fun j _ => congrArg src (funext fun ax => Fin.ext ?_)
  match ax with
  | ⟨0, _⟩ => rfl
  | ⟨1, _⟩ => rfl
  | ⟨2, _⟩ => rfl

end Cert.LibKeepdims3

end
-- ==== Proof.IdealSpec.lean ====
/-
  The specification: what one result element is, as a function of 96 points' data and one location's coordinates.

  For one output channel and one grid location with coordinates `(x0, x1)`, each of the channel's 96 points `p`, at
  `(a0 p, a1 p)` with radius `r p`, has the triangular basis value `max (1 - (|a0 p - x0| + |a1 p - x1|) / r p) 0`;
  the values are normalised by the number of points whose value is not zero, plus a small constant, and a result
  element is the sum over the points of a weight times the normalised value.

  The two programs differ in how they count: one converts each point's zero-or-one flag to a float and sums the
  floats, the other sums the flags as 32-bit integers and converts the sum. At most 96 ones cannot overflow 32 bits, so
  the integer sum read signed is the number of ones, and the two counts are one extended real (`count_eq`).
-/
import Idealize.ShloMosaic.PureOps.Ideal
import Idealize.ShloMosaic.PureOps.Ideal.Laws
import Idealize.ShloMosaic.PureOps.Reduce

noncomputable section

namespace Cert.Spec

open Idealize.ShloMosaic

/-- The three float constants of both programs, kept as their words: `1`, `0` and the normaliser's small constant. -/
abbrev one : EReal := Ideal.ofBits .f32 0x3F800000#32
abbrev zero : EReal := Ideal.ofBits .f32 0x00000000#32
abbrev eps : EReal := Ideal.ofBits .f32 0x358637BD#32

/-- The triangular basis value of a point at `(a0, a1)` with radius `r`, at the location `(x0, x1)`. -/
def basis (a0 a1 r x0 x1 : EReal) : EReal :=
  max (one - Ideal.div (max (a0 - x0) (-(a0 - x0)) + max (a1 - x1) (-(a1 - x1))) r) zero

/-- Whether a basis value is not zero, as a 32-bit word that is 0 or 1. -/
def flag (v : EReal) : BitVec 32 := (Ideal.cmp .one v zero).setWidth 32

/-- The number of points whose value is not zero: the flags converted one by one and summed. -/
def count (vals : Fin 96 → EReal) : EReal := ∑ q : Fin 96, (((flag (vals q)).toInt : ℝ) : EReal)

/-- One result element. -/
def cell (a0 a1 r w : Fin 96 → EReal) (x0 x1 : EReal) : EReal :=
  ∑ p : Fin 96, w p * Ideal.div (basis (a0 p) (a1 p) (r p) x0 x1)
    (count (fun q => basis (a0 q) (a1 q) (r q) x0 x1) + eps)

theorem flag_toNat_le (v : EReal) : (flag v).toNat ≤ 1 := by
  unfold flag
  rw [BitVec.toNat_setWidth]
  have h : (Ideal.cmp .one v zero).toNat < 2 := (Ideal.cmp .one v zero).isLt
  exact Nat.le_of_lt_succ (lt_of_le_of_lt (Nat.mod_le _ _) h)

/-- A real sum's image in the extended reals is the sum of the images. -/
theorem coe_sum {ι : Type} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- The 32-bit sum of few zero-or-one words does not wrap: its value is the number of ones. -/
theorem toNat_fold_addi {ι : Type} [DecidableEq ι] (f : ι → BitVec 32) (hf : ∀ k, (f k).toNat ≤ 1) (s : Finset ι)
    (hs : s.card < 2 ^ 31) : (s.fold IntOp.addi 0#32 f).toNat = ∑ k ∈ s, (f k).toNat := by
  induction s using Finset.induction_on with
  | empty => simp
  | insert a s ha ih =>
    have hc : s.card < 2 ^ 31 := by rw [Finset.card_insert_of_notMem ha] at hs; omega
    have hsum : ∑ k ∈ s, (f k).toNat ≤ s.card := by
      have := Finset.sum_le_card_nsmul s (fun k => (f k).toNat) 1 (fun k _ => hf k)
      simpa using this
    rw [Finset.fold_insert ha, Finset.sum_insert ha]
    show (f a + s.fold IntOp.addi 0#32 f).toNat = _
    rw [BitVec.toNat_add, ih hc, Nat.mod_eq_of_lt]
    have := hf a
    omega

/-- The integer sum of the flags, read signed and converted, is the sum of the flags converted one by one. -/
theorem count_eq (f : Fin 96 → BitVec 32) (hf : ∀ k, (f k).toNat ≤ 1) :
    ((((Finset.univ : Finset (Fin 96)).fold IntOp.addi 0#32 f).toInt : ℝ) : EReal) = ∑ k : Fin 96, (((f k).toInt : ℝ) : EReal) := by
  have hcard : (Finset.univ : Finset (Fin 96)).card < 2 ^ 31 := by
    rw [Finset.card_univ, Fintype.card_fin]; norm_num
  have hN := toNat_fold_addi f hf Finset.univ hcard
  have hle : ∑ k : Fin 96, (f k).toNat ≤ 96 := by
    have h := Finset.sum_le_card_nsmul (Finset.univ : Finset (Fin 96)) (fun k => (f k).toNat) 1 (fun k _ => hf k)
    rw [Finset.card_univ, Fintype.card_fin, smul_eq_mul, mul_one] at h
    exact h
  have hlt : 2 * ((Finset.univ : Finset (Fin 96)).fold IntOp.addi 0#32 f).toNat < 2 ^ 32 := by
    rw [hN]
    have : (2 : ℕ) ^ 32 = 4294967296 := by norm_num
    omega
  have h1 : ((Finset.univ : Finset (Fin 96)).fold IntOp.addi 0#32 f).toInt = ((∑ k : Fin 96, (f k).toNat : ℕ) : ℤ) := by
    rw [BitVec.toInt_eq_toNat_of_lt hlt, hN]
  have h2 : ∀ k, (f k).toInt = ((f k).toNat : ℤ) := fun k =>
    BitVec.toInt_eq_toNat_of_lt (by
      have := hf k
      have : (2 : ℕ) ^ 32 = 4294967296 := by norm_num
      omega)
  rw [h1, ← coe_sum]
  refine congrArg (fun r : ℝ => (r : EReal)) ?_
  rw [Nat.cast_sum, Int.cast_sum]
  exact Finset.sum_congr rfl fun k _ => by rw [h2 k]

end Cert.Spec

end
-- ==== Proof.IdealPayload.lean ====
/-
  The body's value read at an index, at the ideal values.

  At `(b, c, n)` of the 32 x 256 x 256 result block — output channel `b` of the block, input channel `c`, location `n` of
  the block — the body's value is the specification's `cell` of channel `b`'s 96 points (their two coordinates, their
  radii), the 96 weights of `(b, c)`, and the two coordinates of location `n`. Only column `n` of the locations' block
  enters: that is why what fills that block past the array's end never reaches a result element inside the array.
-/
import proofs.«144877_j24730421691146_1_alg».proof.Proof.Gen.KernelIdeal.Skeleton
import proofs.«144877_j24730421691146_1_alg».proof.Proof.LibKeepdims3
import proofs.«144877_j24730421691146_1_alg».proof.Proof.IdealSpec
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx Cert.LibKeepdims3

variable (x0 : Vec Ideal S32x2x96 .f32) (x3 : Vec Ideal S2x256 .f32) (x1 : Vec Ideal S32x96 .f32)

/-! ## The stages of the basis block -/

/-- The points' coordinate 0, one column per location. -/
def ptCoord0 : FVec Ideal S32x96x256 .f32 :=
  broadcastTo S32x96x256 (shapeCast S32x96x1 (shapeCast S32x96 (extractStridedSlice S32x1x96 ![0, 0, 0]
    (shapeCast S32x2x96 x0 Gen.shapeCasts_S32x2x96_S32x2x96) Gen.slices_S32x2x96_o0_0_0_S32x1x96) Gen.shapeCasts_S32x1x96_S32x96)
    Gen.shapeCasts_S32x96_S32x96x1) Gen.broadcasts_S32x96x1_S32x96x256
/-- The points' coordinate 1. -/
def ptCoord1 : FVec Ideal S32x96x256 .f32 :=
  broadcastTo S32x96x256 (shapeCast S32x96x1 (shapeCast S32x96 (extractStridedSlice S32x1x96 ![0, 1, 0]
    (shapeCast S32x2x96 x0 Gen.shapeCasts_S32x2x96_S32x2x96) Gen.slices_S32x2x96_o0_1_0_S32x1x96) Gen.shapeCasts_S32x1x96_S32x96)
    Gen.shapeCasts_S32x96_S32x96x1) Gen.broadcasts_S32x96x1_S32x96x256
/-- The locations' coordinate 0, one row per point. -/
def locCoord0 : FVec Ideal S32x96x256 .f32 :=
  broadcastTo S32x96x256 (shapeCast S1x1x256 (shapeCast S256 (extractStridedSlice S1x256 ![0, 0]
    (shapeCast S2x256 x3 Gen.shapeCasts_S2x256_S2x256) Gen.slices_S2x256_o0_0_S1x256) Gen.shapeCasts_S1x256_S256)
    Gen.shapeCasts_S256_S1x1x256) Gen.broadcasts_S1x1x256_S32x96x256
/-- The locations' coordinate 1. -/
def locCoord1 : FVec Ideal S32x96x256 .f32 :=
  broadcastTo S32x96x256 (shapeCast S1x1x256 (shapeCast S256 (extractStridedSlice S1x256 ![1, 0]
    (shapeCast S2x256 x3 Gen.shapeCasts_S2x256_S2x256) Gen.slices_S2x256_o1_0_S1x256) Gen.shapeCasts_S1x256_S256)
    Gen.shapeCasts_S256_S1x1x256) Gen.broadcasts_S1x1x256_S32x96x256
/-- The radii, one column per location. -/
def radCol : FVec Ideal S32x96x256 .f32 :=
  broadcastTo S32x96x256 (shapeCast S32x96x1 (shapeCast S32x96 x1 Gen.shapeCasts_S32x96_S32x96)
    Gen.shapeCasts_S32x96_S32x96x1) Gen.broadcasts_S32x96x1_S32x96x256

theorem ptCoord0_apply (b : Fin 32) (p : Fin 96) (n : Fin 256) : ptCoord0 x0 (ix3 b p n) = x0 (ix3 b (0 : Fin 2) p) := by
  unfold ptCoord0
  rw [shapeCast_self]
  exact (col_bcast_apply _ _ _ b p n).trans (coord_slice_apply x0 (0 : Fin 2) _ _ b p)
theorem ptCoord1_apply (b : Fin 32) (p : Fin 96) (n : Fin 256) : ptCoord1 x0 (ix3 b p n) = x0 (ix3 b (1 : Fin 2) p) := by
  unfold ptCoord1
  rw [shapeCast_self]
  exact (col_bcast_apply _ _ _ b p n).trans (coord_slice_apply x0 (1 : Fin 2) _ _ b p)
theorem locCoord0_apply (b : Fin 32) (p : Fin 96) (n : Fin 256) : locCoord0 x3 (ix3 b p n) = x3 (ix2 (0 : Fin 2) n) := by
  unfold locCoord0
  rw [shapeCast_self]
  exact (row_bcast_apply _ _ _ b p n).trans (row_slice_apply x3 (0 : Fin 2) _ _ n)
theorem locCoord1_apply (b : Fin 32) (p : Fin 96) (n : Fin 256) : locCoord1 x3 (ix3 b p n) = x3 (ix2 (1 : Fin 2) n) := by
  unfold locCoord1
  rw [shapeCast_self]
  exact (row_bcast_apply _ _ _ b p n).trans (row_slice_apply x3 (1 : Fin 2) _ _ n)
theorem radCol_apply (b : Fin 32) (p : Fin 96) (n : Fin 256) : radCol x1 (ix3 b p n) = x1 (ix2 b p) := by
  unfold radCol
  rw [shapeCast_self]
  exact col_bcast_apply _ _ _ b p n

/-- The basis values of the block: one per point of a channel and location. -/
def basisBlock : FVec Ideal S32x96x256 .f32 :=
  maximumf (subf (broadcast S32x96x256 (Scalar.ofBits .f32 0x3F800000#32))
    (divf (addf (absf (subf (ptCoord0 x0) (locCoord0 x3))) (absf (subf (ptCoord1 x0) (locCoord1 x3)))) (radCol x1)))
    (broadcast S32x96x256 (Scalar.ofBits .f32 0x00000000#32))

theorem basisBlock_apply (b : Fin 32) (p : Fin 96) (n : Fin 256) :
    basisBlock x0 x3 x1 (ix3 b p n)
      = Spec.basis (x0 (ix3 b (0 : Fin 2) p)) (x0 (ix3 b (1 : Fin 2) p)) (x1 (ix2 b p)) (x3 (ix2 (0 : Fin 2) n)) (x3 (ix2 (1 : Fin 2) n)) := by
  show max (Spec.one - Ideal.div (max (ptCoord0 x0 (ix3 b p n) - locCoord0 x3 (ix3 b p n)) (-(ptCoord0 x0 (ix3 b p n) - locCoord0 x3 (ix3 b p n)))
      + max (ptCoord1 x0 (ix3 b p n) - locCoord1 x3 (ix3 b p n)) (-(ptCoord1 x0 (ix3 b p n) - locCoord1 x3 (ix3 b p n)))) (radCol x1 (ix3 b p n))) Spec.zero = _
  rw [ptCoord0_apply, ptCoord1_apply, locCoord0_apply, locCoord1_apply, radCol_apply]
  rfl

/-- The normaliser: the count of nonzero basis values over a channel's points, plus the small constant, one row per
    point. -/
def normRow : FVec Ideal S32x96x256 .f32 :=
  broadcastTo S32x96x256 (addf (shapeCast S32x1x256
    (multiReduction .add [1] S32x256 (sitofp .f32 (extui 32 (cmpf .one (basisBlock x0 x3 x1) (broadcast S32x96x256 (Scalar.ofBits .f32 0x00000000#32))) Gen.natLt_1_32))
      0x00000000#32 Gen.reduces_S32x96x256_S32x256 (.inl rfl) rfl) Gen.shapeCasts_S32x256_S32x1x256)
    (broadcast S32x1x256 (Scalar.ofBits .f32 0x358637BD#32))) Gen.broadcasts_S32x1x256_S32x96x256

theorem normRow_apply (b : Fin 32) (p : Fin 96) (n : Fin 256) :
    normRow x0 x3 x1 (ix3 b p n)
      = Spec.count (fun q => Spec.basis (x0 (ix3 b (0 : Fin 2) q)) (x0 (ix3 b (1 : Fin 2) q)) (x1 (ix2 b q)) (x3 (ix2 (0 : Fin 2) n)) (x3 (ix2 (1 : Fin 2) n))) + Spec.eps := by
  unfold normRow
  rw [mid_bcast_apply _ _ b p n]
  show shapeCast S32x1x256 _ Gen.shapeCasts_S32x256_S32x1x256 (ix3 b (0 : Fin 1) n) + Spec.eps = _
  rw [mid_cast_apply _ _ b (0 : Fin 1) n]
  refine congrArg (· + Spec.eps) ((sum_mid_apply _ _ _ _ _ b n).trans (Finset.sum_congr rfl fun q _ => ?_))
  show (((((Ideal.cmp .one (basisBlock x0 x3 x1 (ix3 b q n)) Spec.zero).setWidth 32).toInt : ℝ)) : EReal) = _
  rw [basisBlock_apply]
  rfl

/-- The printed payload of the first part is the basis block divided by the normaliser. -/
theorem pay2_eq : k0_pay2 (F := Ideal) x0 x3 x1 = divf (basisBlock x0 x3 x1) (normRow x0 x3 x1) := rfl

/-- The normalised basis value at a point of a channel and a location. -/
theorem pay2_apply (b : Fin 32) (p : Fin 96) (n : Fin 256) :
    k0_pay2 (F := Ideal) x0 x3 x1 (ix3 b p n)
      = Ideal.div (Spec.basis (x0 (ix3 b (0 : Fin 2) p)) (x0 (ix3 b (1 : Fin 2) p)) (x1 (ix2 b p)) (x3 (ix2 (0 : Fin 2) n)) (x3 (ix2 (1 : Fin 2) n)))
          (Spec.count (fun q => Spec.basis (x0 (ix3 b (0 : Fin 2) q)) (x0 (ix3 b (1 : Fin 2) q)) (x1 (ix2 b q)) (x3 (ix2 (0 : Fin 2) n)) (x3 (ix2 (1 : Fin 2) n))) + Spec.eps) := by
  rw [pay2_eq]
  show Ideal.div (basisBlock x0 x3 x1 (ix3 b p n)) (normRow x0 x3 x1 (ix3 b p n)) = _
  rw [basisBlock_apply, normRow_apply]

/-! ## The contraction over the points -/

theorem lhs_ax0 (i : S32x256x256.Idx) (q : dot_S32x256x96_S32x96x256_S32x256x256_2_1_1_2_0_0.contr.Idx) : (dot_S32x256x96_S32x96x256_S32x256x256_2_1_1_2_0_0.lhsIdx i q 0).val = (i 0).val := by
  unfold DotDims.lhsIdx
  rw [dif_pos (show (0 : Fin S32x256x96.rank) ∈ dot_S32x256x96_S32x96x256_S32x256x256_2_1_1_2_0_0.lhsBatch by decide)]
  rfl
theorem lhs_ax1 (i : S32x256x256.Idx) (q : dot_S32x256x96_S32x96x256_S32x256x256_2_1_1_2_0_0.contr.Idx) : (dot_S32x256x96_S32x96x256_S32x256x256_2_1_1_2_0_0.lhsIdx i q 1).val = (i 1).val := by
  unfold DotDims.lhsIdx
  rw [dif_neg (show ¬(1 : Fin S32x256x96.rank) ∈ dot_S32x256x96_S32x96x256_S32x256x256_2_1_1_2_0_0.lhsBatch by decide),
    dif_pos (show (1 : Fin S32x256x96.rank) ∈ dot_S32x256x96_S32x96x256_S32x256x256_2_1_1_2_0_0.lhsNonContracting by decide)]
  rfl
theorem lhs_ax2 (i : S32x256x256.Idx) (q : dot_S32x256x96_S32x96x256_S32x256x256_2_1_1_2_0_0.contr.Idx) : (dot_S32x256x96_S32x96x256_S32x256x256_2_1_1_2_0_0.lhsIdx i q 2).val = (q ⟨0, by decide⟩).val :=
  dot_S32x256x96_S32x96x256_S32x256x256_2_1_1_2_0_0.lhsIdx_val_of_single rfl i q
theorem rhs_ax0 (i : S32x256x256.Idx) (q : dot_S32x256x96_S32x96x256_S32x256x256_2_1_1_2_0_0.contr.Idx) : (dot_S32x256x96_S32x96x256_S32x256x256_2_1_1_2_0_0.rhsIdx i q 0).val = (i 0).val := by
  unfold DotDims.rhsIdx
  rw [dif_pos (show (0 : Fin S32x96x256.rank) ∈ dot_S32x256x96_S32x96x256_S32x256x256_2_1_1_2_0_0.rhsBatch by decide)]
  rfl
theorem rhs_ax1 (i : S32x256x256.Idx) (q : dot_S32x256x96_S32x96x256_S32x256x256_2_1_1_2_0_0.contr.Idx) : (dot_S32x256x96_S32x96x256_S32x256x256_2_1_1_2_0_0.rhsIdx i q 1).val = (q ⟨0, by decide⟩).val :=
  dot_S32x256x96_S32x96x256_S32x256x256_2_1_1_2_0_0.rhsIdx_val_of_single rfl i q
theorem rhs_ax2 (i : S32x256x256.Idx) (q : dot_S32x256x96_S32x96x256_S32x256x256_2_1_1_2_0_0.contr.Idx) : (dot_S32x256x96_S32x96x256_S32x256x256_2_1_1_2_0_0.rhsIdx i q 2).val = (i 2).val := by
  unfold DotDims.rhsIdx
  rw [dif_neg (show ¬(2 : Fin S32x96x256.rank) ∈ dot_S32x256x96_S32x96x256_S32x256x256_2_1_1_2_0_0.rhsBatch by decide),
    dif_pos (show (2 : Fin S32x96x256.rank) ∈ dot_S32x256x96_S32x96x256_S32x256x256_2_1_1_2_0_0.rhsNonContracting by decide)]
  rfl

/-- The stored value at `(b, c, n)`: the weights of `(b, c)` against the normalised values of `(b, ·, n)`, summed over
    the 96 points (a change of float format is the identity, the accumulator is zero). -/
theorem pay1_apply (v43 : FVec Ideal S32x96x256 .f32) (v44 : Vec Ideal S32x256x96 .f32) (b : Fin 32) (c : Fin 256) (n : Fin 256) :
    k0_pay1 (F := Ideal) v43 v44 (ix3 b c n) = ∑ p : Fin 96, v44 (ix3 b c p) * v43 (ix3 b p n) := by
  unfold k0_pay1
  simp only [matmul]
  rw [Ideal.matmul_constant_zero_apply, ← Equiv.sum_comp (ValueIdx.contrEquiv1 dot_S32x256x96_S32x96x256_S32x256x256_2_1_1_2_0_0 96 rfl rfl).symm]
  refine Finset.sum_congr rfl fun k _ => ?_
  have hk := ValueIdx.contrEquiv1_symm_val dot_S32x256x96_S32x96x256_S32x256x256_2_1_1_2_0_0 96 rfl rfl k
  have el : dot_S32x256x96_S32x96x256_S32x256x256_2_1_1_2_0_0.lhsIdx (ix3 b c n) ((ValueIdx.contrEquiv1 dot_S32x256x96_S32x96x256_S32x256x256_2_1_1_2_0_0 96 rfl rfl).symm k) = ix3 b c k := funext fun a => Fin.ext (by
    match a with
    | ⟨0, _⟩ => exact lhs_ax0 _ _
    | ⟨1, _⟩ => exact lhs_ax1 _ _
    | ⟨2, _⟩ => exact (lhs_ax2 _ _).trans hk)
  have er : dot_S32x256x96_S32x96x256_S32x256x256_2_1_1_2_0_0.rhsIdx (ix3 b c n) ((ValueIdx.contrEquiv1 dot_S32x256x96_S32x96x256_S32x256x256_2_1_1_2_0_0 96 rfl rfl).symm k) = ix3 b k n := funext fun a => Fin.ext (by
    match a with
    | ⟨0, _⟩ => exact rhs_ax0 _ _
    | ⟨1, _⟩ => exact (rhs_ax1 _ _).trans hk
    | ⟨2, _⟩ => exact rhs_ax2 _ _)
  rw [el, er]
  rfl

/-- The body's value at `(b, c, n)` is the specification's cell. -/
theorem value_apply (x2 : Vec Ideal S32x256x96 .f32) (b : Fin 32) (c : Fin 256) (n : Fin 256) :
    k0_pay1 (F := Ideal) (k0_pay2 (F := Ideal) x0 x3 x1) x2 (ix3 b c n)
      = Spec.cell (fun p => x0 (ix3 b (0 : Fin 2) p)) (fun p => x0 (ix3 b (1 : Fin 2) p)) (fun p => x1 (ix2 b p))
          (fun p => x2 (ix3 b c p)) (x3 (ix2 (0 : Fin 2) n)) (x3 (ix2 (1 : Fin 2) n)) := by
  rw [pay1_apply]
  unfold Spec.cell
  exact Finset.sum_congr rfl fun p _ => by rw [pay2_apply]

end Cert.KernelIdeal.Hand

end
-- ==== Proof.IdealBlocks.lean ====
/-
  From blocks to the array, at the ideal values.

  Point `(i, j)` of the 8 x 11 grid handles output channels `32 i ‥ 32 i + 31` and locations `256 j ‥`, the last
  block of locations cut at the array's 2601. What the body leaves at `(b, c, n)` of its result block depends on the
  locations' block at column `n` only, so for `n` inside the array it is the same whatever fills the buffer past the
  array's end (`indep`), and it is block `(i, j)` of ONE function of the four arrays the windows stage: at
  `(o, c, N)` the specification's cell of channel `o`'s points, the weights of `(o, c)` and location `N`'s coordinates.
  The blocks cover the array, so after the run the array holds that function.
-/
import proofs.«144877_j24730421691146_1_alg».proof.Proof.IdealData
import proofs.«144877_j24730421691146_1_alg».proof.Proof.IdealPayload

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- What the result buffer holds at `(b, c, n)`: the cell of the loaded blocks. -/
theorem blockOut_apply (x0 : Vec Ideal S32x2x96 .f32) (x1 : Vec Ideal S32x96 .f32) (x2 : Vec Ideal S32x256x96 .f32)
    (x3 : Vec Ideal S2x256 .f32) (b : Fin 32) (c : Fin 256) (n : Fin 256) :
    blockOut (F := Ideal) x0 x1 x2 x3 (ix3 b c n)
      = Spec.cell (fun p => x0 (ix3 b (0 : Fin 2) p)) (fun p => x0 (ix3 b (1 : Fin 2) p)) (fun p => x1 (ix2 b p))
          (fun p => x2 (ix3 b c p)) (x3 (ix2 (0 : Fin 2) n)) (x3 (ix2 (1 : Fin 2) n)) := by
  unfold blockOut
  rw [View.canon_unit_zero hz3]
  simp only [View.ld_unit_zero (S := S32x2x96) hz3, View.ld_unit_zero (S := S32x96) hz2,
    View.ld_unit_zero (S := S32x256x96) hz3, View.ld_unit_zero (S := S2x256) hz2]
  exact value_apply x0 x3 x1 x2 b c n

/-- The printed index maps and cuts, decided once over the grid: the three channel-blocked inputs move with the
    result's channel block and sit at block 0 on their other axes; the locations' window moves with the result's
    location block, and is cut exactly as the result's is. -/
theorem idx_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 2) = win0_4.index t (0 : Fin 3) ∧ win0_1.index t (1 : Fin 2) = 0
    ∧ win0_2.index t (0 : Fin 3) = win0_4.index t (0 : Fin 3) ∧ win0_2.index t (1 : Fin 3) = 0 ∧ win0_2.index t (2 : Fin 3) = 0
    ∧ win0_3.index t (0 : Fin 2) = 0 ∧ win0_3.index t (1 : Fin 2) = win0_4.index t (2 : Fin 3)
    ∧ win0_4.index t (1 : Fin 3) = 0 ∧ win0_4.index t (0 : Fin 3) < 8 ∧ win0_4.index t (2 : Fin 3) < 11 :=
  (by decide +kernel : ∀ t : Fin grid0.N, _)

theorem cut_facts : ∀ t : Fin cfg0.N,
    win0_3.xsize (grid0.coords t) (0 : Fin 2) = 2 ∧ win0_3.xsize (grid0.coords t) (1 : Fin 2) = win0_4.xsize (grid0.coords t) (2 : Fin 3)
    ∧ win0_4.xsize (grid0.coords t) (0 : Fin 3) = 32 ∧ win0_4.xsize (grid0.coords t) (1 : Fin 3) = 256
    ∧ win0_4.xsize (grid0.coords t) (2 : Fin 3) ≤ 256
    ∧ win0_4.index t (2 : Fin 3) * 256 + win0_4.xsize (grid0.coords t) (2 : Fin 3) = min (win0_4.index t (2 : Fin 3) * 256 + 256) 2601 :=
  (by decide +kernel : ∀ t : Fin grid0.N, _)

/-- Every block of the result is some point's. -/
theorem idx_onto : ∀ (q0 : Fin 8) (q2 : Fin 11), ∃ t : Fin cfg0.N, win0_4.index t = ![q0.val, 0, q2.val] :=
  (by decide +kernel : ∀ (q0 : Fin 8) (q2 : Fin 11), ∃ t : Fin grid0.N, win0_4.index t = ![q0.val, 0, q2.val])

/-! ## The locations' block read in the array -/

/-- Inside the cut, the locations' buffer holds the array's element, whatever fills it out past the array's end. -/
theorem locBlock_apply (c : Dev nD) (t : Fin cfg0.N) (d : S2x256.Idx → Elt Ideal .f32) (e : Fin 2) (n : Fin 256)
    (hn : n.val < win0_3.xsize (grid0.coords t) (1 : Fin 2)) (hN : win0_4.index t (2 : Fin 3) * 256 + n.val < 2601) :
    locBlock m c t d (ix2 e n) = V m c main_v3 (ix2 e (⟨win0_4.index t (2 : Fin 3) * 256 + n.val, hN⟩ : Fin 2601)) := by
  obtain ⟨h30, -⟩ := cut_facts t
  obtain ⟨-, -, -, -, -, -, -, -, i30, i31, -⟩ := idx_facts t
  have hmoved : win0_3.moved (grid0.coords t) (ix2 e n) = true :=
    (win0_3.moved_iff (grid0.coords t) (ix2 e n)).mpr fun a => by
      match a with
      | ⟨0, _⟩ => show e.val < win0_3.xsize (grid0.coords t) (0 : Fin 2); rw [h30]; exact e.isLt
      | ⟨1, _⟩ => exact hn
  unfold locBlock Window.fill
  rw [dif_pos hmoved]
  show V m c main_v3 (((cfg0.win 3).blk t).view.emb _) = _
  refine congrArg _ (funext fun a => Fin.ext ?_)
  match a with
  | ⟨0, _⟩ => show win0_3.index t (0 : Fin 2) * 2 + 1 * e.val = e.val; omega
  | ⟨1, _⟩ => show win0_3.index t (1 : Fin 2) * 256 + 1 * n.val = win0_4.index t (2 : Fin 3) * 256 + n.val; omega

/-! ## One function of the staged arrays -/

/-- The result array as one function of the four arrays the windows stage: at `(o, c, N)` the cell of channel
    `o`'s points, the weights of `(o, c)` and location `N`'s coordinates. -/
def arrayOut (A5 : S256x2x96.Idx → EReal) (A4 : S256x96.Idx → EReal) (Aw : S256x256x96.Idx → EReal) (A3 : S2x2601.Idx → EReal) :
    S256x256x2601.Idx → EReal := fun i =>
  Spec.cell (fun p => A5 (ix3 (i 0 : Fin 256) (0 : Fin 2) p)) (fun p => A5 (ix3 (i 0 : Fin 256) (1 : Fin 2) p))
    (fun p => A4 (ix2 (i 0 : Fin 256) p)) (fun p => Aw (ix3 (i 0 : Fin 256) (i 1 : Fin 256) p))
    (A3 (ix2 (0 : Fin 2) (i 2 : Fin 2601))) (A3 (ix2 (1 : Fin 2) (i 2 : Fin 2601)))

/-- The part inside the array of what the body leaves at point `t`, whatever fills out the locations' buffer, is block
    `t` of `arrayOut` of the arrays as the region finds them. -/
theorem cut_out_eq (c : Dev nD) (t : Fin cfg0.N) (d : S2x256.Idx → Elt Ideal .f32) :
    (win0 4).cut (grid0.coords t) (outBlock m c t d)
      = ((cfg0.win 4).blk t).view.read (Elt Ideal) (arrayOut (V m c main_v5) (V m c main_v4) (V m c main_arg3) (V m c main_v3)) := by
  funext y
  obtain ⟨-, h31, h40, h41, h42, h43⟩ := cut_facts t
  obtain ⟨i00, i01, i02, i10, i11, i20, i21, i22, i30, i31, i41, i40, i42⟩ := idx_facts t
  have y0 : (y 0).val < win0_4.xsize (grid0.coords t) (0 : Fin 3) := (y 0).isLt
  have y1 : (y 1).val < win0_4.xsize (grid0.coords t) (1 : Fin 3) := (y 1).isLt
  have y2 : (y 2).val < win0_4.xsize (grid0.coords t) (2 : Fin 3) := (y 2).isLt
  have hb : (y 0).val < 32 := by omega
  have hc : (y 1).val < 256 := by omega
  have hn : (y 2).val < 256 := by omega
  have hn3 : (y 2).val < win0_3.xsize (grid0.coords t) (1 : Fin 2) := by omega
  have hN : win0_4.index t (2 : Fin 3) * 256 + (y 2).val < 2601 := by
    have := Nat.min_le_right (win0_4.index t (2 : Fin 3) * 256 + 256) 2601
    omega
  show outBlock m c t d ((win0 4).xinj (grid0.coords t) y) = _
  have exi : (win0 4).xinj (grid0.coords t) y = ix3 (⟨(y 0).val, hb⟩ : Fin 32) (⟨(y 1).val, hc⟩ : Fin 256) (⟨(y 2).val, hn⟩ : Fin 256) :=
    funext fun a => Fin.ext (by match a with | ⟨0, _⟩ => rfl | ⟨1, _⟩ => rfl | ⟨2, _⟩ => rfl)
  rw [exi]
  unfold outBlock
  rw [blockOut_apply, locBlock_apply m c t d (0 : Fin 2) ⟨(y 2).val, hn⟩ hn3 hN, locBlock_apply m c t d (1 : Fin 2) ⟨(y 2).val, hn⟩ hn3 hN]
  show _ = arrayOut (V m c main_v5) (V m c main_v4) (V m c main_arg3) (V m c main_v3) (((cfg0.win 4).blk t).view.emb y)
  unfold arrayOut
  have hO : win0_4.index t (0 : Fin 3) * 32 + (y 0).val < 256 := by omega
  have e0 : ((((cfg0.win 4).blk t).view.emb y) 0 : Fin 256) = (⟨win0_4.index t (0 : Fin 3) * 32 + (y 0).val, hO⟩ : Fin 256) :=
    Fin.ext (by show win0_4.index t (0 : Fin 3) * 32 + 1 * (y 0).val = win0_4.index t (0 : Fin 3) * 32 + (y 0).val; omega)
  have e1 : ((((cfg0.win 4).blk t).view.emb y) 1 : Fin 256) = (⟨(y 1).val, hc⟩ : Fin 256) :=
    Fin.ext (by show win0_4.index t (1 : Fin 3) * 256 + 1 * (y 1).val = (y 1).val; omega)
  have e2 : ((((cfg0.win 4).blk t).view.emb y) 2 : Fin 2601) = (⟨win0_4.index t (2 : Fin 3) * 256 + (y 2).val, hN⟩ : Fin 2601) :=
    Fin.ext (by show win0_4.index t (2 : Fin 3) * 256 + 1 * (y 2).val = win0_4.index t (2 : Fin 3) * 256 + (y 2).val; omega)
  rw [e0, e1, e2]
  have a5 : ∀ (k : Fin 2) (p : Fin 96), iblk m c 0 t (ix3 (⟨(y 0).val, hb⟩ : Fin 32) k p)
      = V m c main_v5 (ix3 (⟨win0_4.index t (0 : Fin 3) * 32 + (y 0).val, hO⟩ : Fin 256) k p) := fun k p => by
    show V m c main_v5 (((cfg0.win 0).blk t).view.emb _) = _
    refine congrArg _ (funext fun a => Fin.ext ?_)
    match a with
    | ⟨0, _⟩ => show win0_0.index t (0 : Fin 3) * 32 + 1 * (y 0).val = win0_4.index t (0 : Fin 3) * 32 + (y 0).val; omega
    | ⟨1, _⟩ => show win0_0.index t (1 : Fin 3) * 2 + 1 * k.val = k.val; omega
    | ⟨2, _⟩ => show win0_0.index t (2 : Fin 3) * 96 + 1 * p.val = p.val; omega
  have a4 : ∀ (p : Fin 96), iblk m c 1 t (ix2 (⟨(y 0).val, hb⟩ : Fin 32) p)
      = V m c main_v4 (ix2 (⟨win0_4.index t (0 : Fin 3) * 32 + (y 0).val, hO⟩ : Fin 256) p) := fun p => by
    show V m c main_v4 (((cfg0.win 1).blk t).view.emb _) = _
    refine congrArg _ (funext fun a => Fin.ext ?_)
    match a with
    | ⟨0, _⟩ => show win0_1.index t (0 : Fin 2) * 32 + 1 * (y 0).val = win0_4.index t (0 : Fin 3) * 32 + (y 0).val; omega
    | ⟨1, _⟩ => show win0_1.index t (1 : Fin 2) * 96 + 1 * p.val = p.val; omega
  have aw : ∀ (p : Fin 96), iblk m c 2 t (ix3 (⟨(y 0).val, hb⟩ : Fin 32) (⟨(y 1).val, hc⟩ : Fin 256) p)
      = V m c main_arg3 (ix3 (⟨win0_4.index t (0 : Fin 3) * 32 + (y 0).val, hO⟩ : Fin 256) (⟨(y 1).val, hc⟩ : Fin 256) p) := fun p => by
    show V m c main_arg3 (((cfg0.win 2).blk t).view.emb _) = _
    refine congrArg _ (funext fun a => Fin.ext ?_)
    match a with
    | ⟨0, _⟩ => show win0_2.index t (0 : Fin 3) * 32 + 1 * (y 0).val = win0_4.index t (0 : Fin 3) * 32 + (y 0).val; omega
    | ⟨1, _⟩ => show win0_2.index t (1 : Fin 3) * 256 + 1 * (y 1).val = (y 1).val; omega
    | ⟨2, _⟩ => show win0_2.index t (2 : Fin 3) * 96 + 1 * p.val = p.val; omega
  simp only [a5, a4, aw] <;> rfl

/-- Column independence, at the ideal values. -/
theorem indep : Indep m := fun c t d => by rw [cut_out_eq m c t d, cut_out_eq m c t zeroFill]

/-- What point `t` writes back is block `t` of `arrayOut`. -/
theorem flushed_eq (c : Dev nD) (t : Fin cfg0.N) :
    (dats m 0 c).flushed 4 t
      = ((cfg0.win 4).blk t).view.read (Elt Ideal) (arrayOut (V m c main_v5) (V m c main_v4) (V m c main_arg3) (V m c main_v3)) := by
  show (cfg0.win 4).cut (grid0.coords t) ((dats m 0 c).after 4 t) = _
  rw [after_4]
  exact cut_out_eq m c t zeroFill

/-- An index of the array is in point `t`'s block iff each coordinate is in the block's range cut at the array's end. -/
theorem mem_blk (t : Fin cfg0.N) (i : S256x256x2601.Idx) :
    i ∈ ((cfg0.win 4).blk t).view.set ↔ ∀ a : Fin 3, win0_4.index t a * S32x256x256.size a ≤ (i a).val
      ∧ (i a).val < win0_4.index t a * S32x256x256.size a + win0_4.xsize (grid0.coords t) a := by
  show i ∈ ((View.whole main_v6).slice (win0_4.rect t)).set ↔ _
  rw [View.set_slice_whole, Rect.mem_set_unit]
  exact Iff.rfl

/-- The blocks cover the array: the point of channel block `o / 32` and location block `N / 256` covers `(o, c, N)`. -/
theorem cover (i : S256x256x2601.Idx) : ∃ t : Fin cfg0.N, (cfg0.win 4).flush t = true ∧ i ∈ ((cfg0.win 4).blk t).view.set := by
  have hi0 : (i 0).val < 256 := (i 0).isLt
  have hi1 : (i 1).val < 256 := (i 1).isLt
  have hi2 : (i 2).val < 2601 := (i 2).isLt
  obtain ⟨t, ht⟩ := idx_onto ⟨(i 0).val / 32, by omega⟩ ⟨(i 2).val / 256, by omega⟩
  have q0 : win0_4.index t (0 : Fin 3) = (i 0).val / 32 := congrFun ht 0
  have q1 : win0_4.index t (1 : Fin 3) = 0 := congrFun ht 1
  have q2 : win0_4.index t (2 : Fin 3) = (i 2).val / 256 := congrFun ht 2
  obtain ⟨-, -, h40, h41, h42, h43⟩ := cut_facts t
  refine ⟨t, flush0_4 t, ?_⟩
  rw [mem_blk]
  intro a
  match a with
  | ⟨0, _⟩ =>
    show win0_4.index t (0 : Fin 3) * 32 ≤ (i 0).val ∧ (i 0).val < win0_4.index t (0 : Fin 3) * 32 + win0_4.xsize (grid0.coords t) (0 : Fin 3)
    omega
  | ⟨1, _⟩ =>
    show win0_4.index t (1 : Fin 3) * 256 ≤ (i 1).val ∧ (i 1).val < win0_4.index t (1 : Fin 3) * 256 + win0_4.xsize (grid0.coords t) (1 : Fin 3)
    omega
  | ⟨2, _⟩ =>
    show win0_4.index t (2 : Fin 3) * 256 ≤ (i 2).val ∧ (i 2).val < win0_4.index t (2 : Fin 3) * 256 + win0_4.xsize (grid0.coords t) (2 : Fin 3)
    have hmin : win0_4.index t (2 : Fin 3) * 256 + win0_4.xsize (grid0.coords t) (2 : Fin 3)
        = min (win0_4.index t (2 : Fin 3) * 256 + 256) 2601 := h43
    rw [hmin]
    refine ⟨by omega, lt_min (by omega) hi2⟩

/-- The result array after the run is `arrayOut` of the staged arrays as the region finds them. -/
theorem final_out (c : Dev nD) :
    (dats m 0 c).arrAt 4 cfg0.N = arrayOut (V m c main_v5) (V m c main_v4) (V m c main_arg3) (V m c main_v3) :=
  (dats m 0 c).arrAt_eq_of_cover 4 _ (fun t _ => flushed_eq m c t) cover

end Cert.KernelIdeal.Hand

end
-- ==== Proof.SpecResult.lean ====
/-
  The whole result as one function of the four arguments.

  At `(o, c, a, b)` of the 256 x 256 x 51 x 51 result: the cell of output channel `o`'s 96 points (point `p` at
  `(wc o p 0, wc o p 1)` with radius `rad o p`), the weights of `(o, c)`, and the location in row `b`, column `50 - a`
  of the 51 x 51 coordinate grid — the last two axes of the reference's result are its location grid transposed and
  then reversed along the first of them.
-/
import proofs.«144877_j24730421691146_1_alg».proof.Proof.IdealSpec
import Idealize.ShloMosaic.Lib.ValueIdx

noncomputable section

namespace Cert.Spec

open Idealize.ShloMosaic Idealize.ShloMosaic.ValueIdx

def result (x : (⟨4, ![1, 2, 51, 51]⟩ : Shape).Idx → EReal) (wc : (⟨3, ![256, 96, 2]⟩ : Shape).Idx → EReal)
    (rad : (⟨4, ![256, 96, 1, 1]⟩ : Shape).Idx → EReal) (wts : (⟨3, ![256, 256, 96]⟩ : Shape).Idx → EReal) :
    (⟨4, ![256, 256, 51, 51]⟩ : Shape).Idx → EReal := fun i =>
  cell (fun p => wc (ix3 (i 0 : Fin 256) p (0 : Fin 2))) (fun p => wc (ix3 (i 0 : Fin 256) p (1 : Fin 2)))
    (fun p => rad (ix4 (i 0 : Fin 256) p (0 : Fin 1) (0 : Fin 1))) (fun p => wts (ix3 (i 0 : Fin 256) (i 1 : Fin 256) p))
    (x (ix4 (0 : Fin 1) (0 : Fin 2) (i 3 : Fin 51) (Fin.rev (i 2 : Fin 51))))
    (x (ix4 (0 : Fin 1) (1 : Fin 2) (i 3 : Fin 51) (Fin.rev (i 2 : Fin 51))))

theorem result_apply (x : (⟨4, ![1, 2, 51, 51]⟩ : Shape).Idx → EReal) (wc : (⟨3, ![256, 96, 2]⟩ : Shape).Idx → EReal)
    (rad : (⟨4, ![256, 96, 1, 1]⟩ : Shape).Idx → EReal) (wts : (⟨3, ![256, 256, 96]⟩ : Shape).Idx → EReal)
    (o c : Fin 256) (a b : Fin 51) :
    result x wc rad wts (ix4 o c a b)
      = cell (fun p => wc (ix3 o p (0 : Fin 2))) (fun p => wc (ix3 o p (1 : Fin 2)))
          (fun p => rad (ix4 o p (0 : Fin 1) (0 : Fin 1))) (fun p => wts (ix3 o c p))
          (x (ix4 (0 : Fin 1) (0 : Fin 2) b (Fin.rev a))) (x (ix4 (0 : Fin 1) (1 : Fin 2) b (Fin.rev a))) := rfl

end Cert.Spec

end
-- ==== Proof.IdealRun.lean ====
/-
  The idealized kernel's run with its result named.

  Launched with every window named (column independence holds at the ideal values), the run ends with the result
  array at `arrayOut` of the arrays the windows stage, and the line after the region reshapes it to four axes.
  The staged arrays are host rearrangements of the arguments: the points' coordinates transposed to
  `[channel, coordinate, point]`; the radii with their two unit axes dropped; the coordinate grid reversed along its
  columns, transposed and flattened, so that flat location `51 a + b` holds the grid's row `b`, column `50 - a`.
  Reading these at an index turns the result into the specification's `result` of the four arguments.
-/
import proofs.«144877_j24730421691146_1_alg».proof.Proof.IdealBlocks
import proofs.«144877_j24730421691146_1_alg».proof.Proof.SpecResult
import Idealize.ShloMosaic.Lib.StableHlo.Run
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The staged arrays as functions of the arguments -/

theorem V_v5 (c : Dev nD) : (V m c main_v5 : S256x2x96.Idx → EReal)
    = transpose S256x2x96 [0, 2, 1] (m ((c : Thread nD τ).loc main_arg1)) Gen.transposes_S256x96x2_S256x2x96_0_2_1 := by
  dsimp only [Gen.V, Gen.V0]
  simp only [Gen.hostOps0, Gen.hostOps0_1, Gen.hostOps0_2, List.flatten_cons, List.flatten_nil, List.append_nil, List.cons_append,
    List.nil_append]
  after_results
  all_goals rfl

theorem V_v4 (c : Dev nD) : (V m c main_v4 : S256x96.Idx → EReal)
    = shapeCast S256x96 (m ((c : Thread nD τ).loc main_arg2)) Gen.shapeCasts_S256x96x1x1_S256x96 := by
  dsimp only [Gen.V, Gen.V0]
  simp only [Gen.hostOps0, Gen.hostOps0_1, Gen.hostOps0_2, List.flatten_cons, List.flatten_nil, List.append_nil, List.cons_append,
    List.nil_append]
  after_results
  all_goals rfl

theorem V_v3 (c : Dev nD) : (V m c main_v3 : S2x2601.Idx → EReal)
    = shapeCast S2x2601 (transpose S2x51x51 [0, 2, 1] (Host.reverse [2] (shapeCast S2x51x51 (m ((c : Thread nD τ).loc main_arg0))
        Gen.shapeCasts_S1x2x51x51_S2x51x51)) Gen.transposes_S2x51x51_S2x51x51_0_2_1) Gen.shapeCasts_S2x51x51_S2x2601 := by
  dsimp only [Gen.V, Gen.V0]
  simp only [Gen.hostOps0, Gen.hostOps0_1, Gen.hostOps0_2, List.flatten_cons, List.flatten_nil, List.append_nil, List.cons_append,
    List.nil_append]
  after_results
  all_goals rfl

theorem V5_apply (c : Dev nD) (o : Fin 256) (e : Fin 2) (p : Fin 96) :
    V m c main_v5 (ix3 o e p) = m ((c : Thread nD τ).loc main_arg1) (ix3 o p e) := by
  rw [V_v5]
  exact transpose_apply [0, 2, 1] _ _ (ix3 o e p) (ix3 o p e) (fun b => match b with
    | ⟨0, _⟩ => rfl
    | ⟨1, _⟩ => rfl
    | ⟨2, _⟩ => rfl)

theorem V4_apply (c : Dev nD) (o : Fin 256) (p : Fin 96) :
    V m c main_v4 (ix2 o p) = m ((c : Thread nD τ).loc main_arg2) (ix4 o p (0 : Fin 1) (0 : Fin 1)) := by
  rw [V_v4]
  exact shapeCast_apply _ _ (ix2 o p) (ix4 o p (0 : Fin 1) (0 : Fin 1)) (by
    rw [Shape.rowMajor_val_four, Shape.rowMajor_val_two]
    show ((o.val * 96 + p.val) * 1 + (0 : Fin 1).val) * 1 + (0 : Fin 1).val = o.val * 96 + p.val
    simp)

/-- Flat location `51 a + b` of the staged coordinates is the grid's row `b`, column `50 - a`. -/
theorem V3_apply (c : Dev nD) (e : Fin 2) (a b : Fin 51) (hN : a.val * 51 + b.val < 2601) :
    V m c main_v3 (ix2 e (⟨a.val * 51 + b.val, hN⟩ : Fin 2601))
      = m ((c : Thread nD τ).loc main_arg0) (ix4 (0 : Fin 1) e b (Fin.rev a)) := by
  rw [V_v3]
  refine (shapeCast_apply _ _ (ix2 e (⟨a.val * 51 + b.val, hN⟩ : Fin 2601)) (ix3 e a b) (by
    rw [Shape.rowMajor_val_three, Shape.rowMajor_val_two]
    show (e.val * 51 + a.val) * 51 + b.val = e.val * 2601 + (a.val * 51 + b.val)
    omega)).trans ?_
  refine (transpose_apply [0, 2, 1] _ _ (ix3 e a b) (ix3 e b a) (fun k => match k with
    | ⟨0, _⟩ => rfl
    | ⟨1, _⟩ => rfl
    | ⟨2, _⟩ => rfl)).trans ?_
  show shapeCast S2x51x51 _ Gen.shapeCasts_S1x2x51x51_S2x51x51 (fun k => if k ∈ [(2 : Fin 3)] then (ix3 e b a k).rev else ix3 e b a k) = _
  refine shapeCast_apply _ _ _ (ix4 (0 : Fin 1) e b (Fin.rev a)) ?_
  rw [Shape.rowMajor_val_four, Shape.rowMajor_val_three]
  show (((0 : Fin 1).val * 2 + e.val) * 51 + b.val) * 51 + (Fin.rev a).val = (e.val * 51 + b.val) * 51 + (Fin.rev a).val
  simp

/-! ## The run -/

set_option backward.isDefEq.respectTransparency.types false in
/-- The run with every window named. -/
theorem run_named : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation_named m (indep m) c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The result buffer after the line that follows the region: the result array reshaped to four axes. -/
theorem tail_out (c : Dev nD) :
    Pipeline.afterTail₀ cfgs (dats m) 0 (V0 m) [hostOps1] c main_v7
      = shapeCast S256x256x51x51 (arrayOut (V m c main_v5) (V m c main_v4) (V m c main_arg3) (V m c main_v3))
          Gen.shapeCasts_S256x256x2601_S256x256x51x51 := by
  unfold Pipeline.afterTail₀
  show StableHlo.after hostOps1 _ (Proc.devRef .tc main_v7) = _
  after_results
  have e := (Pipeline.withArrays_arr spec0 launch0.win.arr_inj c (V0 m c) (fun w => (dats m 0 c).arrAt w (cfgs 0).N) 4).trans
    (final_out m c)
  funext i
  show shapeCast S256x256x51x51 (Pipeline.withArrays (cfgs 0).spec c (V0 m c) (fun w => (dats m 0 c).arrAt w (cfgs 0).N)
    (Proc.devRef .tc main_v6)) Gen.shapeCasts_S256x256x2601_S256x256x51x51 i = _
  exact congrFun (congrArg (fun A => shapeCast S256x256x51x51 A Gen.shapeCasts_S256x256x2601_S256x256x51x51) e) i

/-- The reshaped result array is the specification's `result` of the four arguments. -/
theorem out_eq (c : Dev nD) :
    shapeCast S256x256x51x51 (arrayOut (V m c main_v5) (V m c main_v4) (V m c main_arg3) (V m c main_v3))
        Gen.shapeCasts_S256x256x2601_S256x256x51x51
      = Spec.result (m ((c : Thread nD τ).loc main_arg0)) (m ((c : Thread nD τ).loc main_arg1))
          (m ((c : Thread nD τ).loc main_arg2)) (m ((c : Thread nD τ).loc main_arg3)) := by
  funext i
  obtain ⟨o, cc, a, b, rfl⟩ : ∃ (o cc : Fin 256) (a b : Fin 51), i = ix4 o cc a b := ⟨i 0, i 1, i 2, i 3, eq_ix4 i⟩
  have ho := o.isLt; have hc := cc.isLt; have ha := a.isLt; have hb := b.isLt
  have hN : a.val * 51 + b.val < 2601 := by omega
  rw [Spec.result_apply]
  refine (shapeCast_apply _ _ (ix4 o cc a b) (ix3 o cc (⟨a.val * 51 + b.val, hN⟩ : Fin 2601)) (by
    rw [Shape.rowMajor_val_three, Shape.rowMajor_val_four]
    show (o.val * 256 + cc.val) * 2601 + (a.val * 51 + b.val) = ((o.val * 256 + cc.val) * 51 + a.val) * 51 + b.val
    omega)).trans ?_
  show Spec.cell (fun p => V m c main_v5 (ix3 o (0 : Fin 2) p)) (fun p => V m c main_v5 (ix3 o (1 : Fin 2) p))
      (fun p => V m c main_v4 (ix2 o p)) (fun p => V m c main_arg3 (ix3 o cc p))
      (V m c main_v3 (ix2 (0 : Fin 2) (⟨a.val * 51 + b.val, hN⟩ : Fin 2601))) (V m c main_v3 (ix2 (1 : Fin 2) (⟨a.val * 51 + b.val, hN⟩ : Fin 2601))) = _
  rw [V3_apply m c (0 : Fin 2) a b hN, V3_apply m c (1 : Fin 2) a b hN, V_main_arg3 m c]
  have h50 : (fun p : Fin 96 => V m c main_v5 (ix3 o (0 : Fin 2) p)) = fun p => m ((c : Thread nD τ).loc main_arg1) (ix3 o p (0 : Fin 2)) :=
    funext fun p => V5_apply m c o (0 : Fin 2) p
  have h51 : (fun p : Fin 96 => V m c main_v5 (ix3 o (1 : Fin 2) p)) = fun p => m ((c : Thread nD τ).loc main_arg1) (ix3 o p (1 : Fin 2)) :=
    funext fun p => V5_apply m c o (1 : Fin 2) p
  have h4 : (fun p : Fin 96 => V m c main_v4 (ix2 o p)) = fun p => m ((c : Thread nD τ).loc main_arg2) (ix4 o p (0 : Fin 1) (0 : Fin 1)) :=
    funext fun p => V4_apply m c o p
  rw [h50, h51, h4]

/-- The idealized kernel's run: the result buffer at the specification's `result` of the arguments, the arguments
    unchanged. -/
theorem run_value : θ_run defs (onTc (τ := τ) (main (F := Ideal))) ⟨m, fun _ => 0, ρ⟩ (fun r => ∀ c : Dev nD,
      r.2.mem ((c.tc : Thread nD τ).loc main_v7)
        = Spec.result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v7 (Pipeline.mem_restRefs_of main_v7 (by decide) (by decide))).trans ((tail_out m c).trans (out_eq m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).1 2).trans (((dats m 0 c).arrAt_in 2 rfl _).trans ((A_eq m c 2).trans (V_main_arg3 m c)))⟩)
    (run_named m ρ)

end Cert.KernelIdeal.Hand

end
-- ==== Proof.RefValue.lean ====
/-
  The reference's result is the specification's `result` of the four arguments, at the ideal values.

  The reference flattens the 51 x 51 grid row by row (location `51 h + w` is row `h`, column `w`), computes per
  output channel, point and location the basis value, counts the nonzero ones per channel and location as a 32-bit
  integer sum, normalises, contracts with the weights over the points, and then lays the locations out as a grid
  again, transposed and reversed along its first axis: element `(o, c, a, b)` of the result is location
  `51 b + (50 - a)`, that is row `b`, column `50 - a`.
-/
import proofs.«144877_j24730421691146_1_alg».proof.Proof.Gen.ReferenceIdeal.Read
import proofs.«144877_j24730421691146_1_alg».proof.Proof.SpecResult
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx

variable (x : (⟨S1x2x51x51, .f32⟩ : BufTy).Contents (Elt Ideal)) (wc : (⟨S256x96x2, .f32⟩ : BufTy).Contents (Elt Ideal))
  (rad : (⟨S256x96x1x1, .f32⟩ : BufTy).Contents (Elt Ideal)) (wts : (⟨S256x256x96, .f32⟩ : BufTy).Contents (Elt Ideal))

/-- Coordinate `e` of location `51 h + w`, broadcast over channels and points, is the grid's `(e, h, w)`. -/
theorem loc_apply (o : Fin 256) (k : Fin 96) (h w : Fin 51) (hn : h.val * 51 + w.val < 2601) (e : Fin 2) :
    val_main_v5 (F := Ideal) x (ix4 o k (⟨h.val * 51 + w.val, hn⟩ : Fin 2601) e) = x (ix4 (0 : Fin 1) e h w) := by
  rw [val_main_v5_apply, val_main_v3_apply, val_main_v1_apply, val_main_v0_apply]
  have he := e.isLt; have hh := h.isLt; have hw := w.isLt
  refine congrArg x (funext fun a => Fin.ext ?_)
  match a with
  | ⟨0, _⟩ => rfl
  | ⟨1, _⟩ => show (e.val * 2601 + (h.val * 51 + w.val)) / 2601 % 2 = e.val; omega
  | ⟨2, _⟩ => show (e.val * 2601 + (h.val * 51 + w.val)) / 51 % 51 = h.val; omega
  | ⟨3, _⟩ => show (e.val * 2601 + (h.val * 51 + w.val)) % 51 = w.val; omega

/-- Coordinate `e` of point `k` of channel `o`, broadcast over the locations. -/
theorem pt_apply (o : Fin 256) (k : Fin 96) (n : Fin 2601) (e : Fin 2) :
    val_main_v4 (F := Ideal) wc (ix4 o k n e) = wc (ix3 o k e) := by
  rw [val_main_v4_apply, val_main_v2_apply]
  refine congrArg wc (funext fun a => Fin.ext ?_)
  match a with
  | ⟨0, _⟩ => rfl
  | ⟨1, _⟩ => rfl
  | ⟨2, _⟩ => rfl

/-- The radius of point `k` of channel `o`, broadcast over the locations. -/
theorem rad_apply (o : Fin 256) (k : Fin 96) (n : Fin 2601) :
    val_main_v10 (F := Ideal) rad (ix3 o k n) = rad (ix4 o k (0 : Fin 1) (0 : Fin 1)) := by
  rw [val_main_v10_apply, val_main_v9_apply]
  have ho := o.isLt; have hk := k.isLt
  refine congrArg rad (funext fun a => Fin.ext ?_)
  match a with
  | ⟨0, _⟩ => show ((o.val * 96 + k.val) * 1 + 0) / 96 = o.val; omega
  | ⟨1, _⟩ => show ((o.val * 96 + k.val) * 1 + 0) / 1 % 96 = k.val; omega
  | ⟨2, _⟩ => rfl
  | ⟨3, _⟩ => rfl

/-- The distance: the sum over the two coordinates from zero. -/
theorem dist_apply (o : Fin 256) (k : Fin 96) (h w : Fin 51) (hn : h.val * 51 + w.val < 2601) :
    val_main_v8 (F := Ideal) x wc (ix3 o k (⟨h.val * 51 + w.val, hn⟩ : Fin 2601))
      = max (wc (ix3 o k (0 : Fin 2)) - x (ix4 (0 : Fin 1) (0 : Fin 2) h w)) (-(wc (ix3 o k (0 : Fin 2)) - x (ix4 (0 : Fin 1) (0 : Fin 2) h w)))
        + max (wc (ix3 o k (1 : Fin 2)) - x (ix4 (0 : Fin 1) (1 : Fin 2) h w)) (-(wc (ix3 o k (1 : Fin 2)) - x (ix4 (0 : Fin 1) (1 : Fin 2) h w))) := by
  rw [val_main_v8_apply, Fin.sum_univ_two]
  have i8 : ∀ e : Fin 2, idx_main_v8 (ix3 o k (⟨h.val * 51 + w.val, hn⟩ : Fin 2601)) e = ix4 o k (⟨h.val * 51 + w.val, hn⟩ : Fin 2601) e :=
    fun e => funext fun a => Fin.ext (by match a with | ⟨0, _⟩ => rfl | ⟨1, _⟩ => rfl | ⟨2, _⟩ => rfl | ⟨3, _⟩ => rfl)
  rw [i8, i8]
  show Ideal.ofBits .f32 0x00000000#32
      + (max (val_main_v4 (F := Ideal) wc (ix4 o k _ (0 : Fin 2)) - val_main_v5 (F := Ideal) x (ix4 o k _ (0 : Fin 2)))
            (-(val_main_v4 (F := Ideal) wc (ix4 o k _ (0 : Fin 2)) - val_main_v5 (F := Ideal) x (ix4 o k _ (0 : Fin 2))))
         + max (val_main_v4 (F := Ideal) wc (ix4 o k _ (1 : Fin 2)) - val_main_v5 (F := Ideal) x (ix4 o k _ (1 : Fin 2)))
            (-(val_main_v4 (F := Ideal) wc (ix4 o k _ (1 : Fin 2)) - val_main_v5 (F := Ideal) x (ix4 o k _ (1 : Fin 2))))) = _
  rw [Ideal.ofBits_zero_f32, zero_add, pt_apply, pt_apply, loc_apply, loc_apply]

/-- The basis value of point `k` of channel `o` at location `51 h + w`. -/
theorem basis_ref (o : Fin 256) (k : Fin 96) (h w : Fin 51) (hn : h.val * 51 + w.val < 2601) :
    val_main_v14 (F := Ideal) x wc rad (ix3 o k (⟨h.val * 51 + w.val, hn⟩ : Fin 2601))
      = Spec.basis (wc (ix3 o k (0 : Fin 2))) (wc (ix3 o k (1 : Fin 2))) (rad (ix4 o k (0 : Fin 1) (0 : Fin 1)))
          (x (ix4 (0 : Fin 1) (0 : Fin 2) h w)) (x (ix4 (0 : Fin 1) (1 : Fin 2) h w)) := by
  show max (val_main_v12 (F := Ideal) _ - Ideal.div (val_main_v8 (F := Ideal) x wc _) (val_main_v10 (F := Ideal) rad _))
      (val_main_call0_v0 (F := Ideal) _) = _
  rw [val_main_v12_apply, val_main_call0_v0_apply, dist_apply, rad_apply]
  rfl

/-- The count of nonzero basis values over the points of channel `o` at a location: the 32-bit sum of the flags,
    converted — the sum of the converted flags, since 96 ones do not overflow. -/
theorem count_ref (o : Fin 256) (h w : Fin 51) (hn : h.val * 51 + w.val < 2601) :
    val_main_v20 (F := Ideal) x wc rad (ix3 o (0 : Fin 1) (⟨h.val * 51 + w.val, hn⟩ : Fin 2601))
      = Spec.count (fun q => Spec.basis (wc (ix3 o q (0 : Fin 2))) (wc (ix3 o q (1 : Fin 2))) (rad (ix4 o q (0 : Fin 1) (0 : Fin 1)))
          (x (ix4 (0 : Fin 1) (0 : Fin 2) h w)) (x (ix4 (0 : Fin 1) (1 : Fin 2) h w))) := by
  show ((((val_main_v19 (F := Ideal) x wc rad (ix3 o (0 : Fin 1) (⟨h.val * 51 + w.val, hn⟩ : Fin 2601))).toInt : ℝ)) : EReal) = _
  rw [val_main_v19_apply]
  have i19 : idx_main_v19 (ix3 o (0 : Fin 1) (⟨h.val * 51 + w.val, hn⟩ : Fin 2601)) = ix2 o (⟨h.val * 51 + w.val, hn⟩ : Fin 2601) :=
    funext fun a => Fin.ext (by match a with | ⟨0, _⟩ => rfl | ⟨1, _⟩ => rfl)
  rw [i19]
  unfold val_main_v18
  have hR : S256x96x2601.Reduces [1] S256x2601 := by decide
  rw [Host.reduce_eq_fold_single IntOp.addi _ _ reducesTo_S256x96x2601_S256x2601_d1 hR h_S_ (ix2 o (⟨h.val * 51 + w.val, hn⟩ : Fin 2601))]
  have hl : (val_main_v17 (F := Ideal) x wc rad ∘ hR.lift (ix2 o (⟨h.val * 51 + w.val, hn⟩ : Fin 2601)))
      = fun q : Fin 96 => Spec.flag (Spec.basis (wc (ix3 o q (0 : Fin 2))) (wc (ix3 o q (1 : Fin 2))) (rad (ix4 o q (0 : Fin 1) (0 : Fin 1)))
          (x (ix4 (0 : Fin 1) (0 : Fin 2) h w)) (x (ix4 (0 : Fin 1) (1 : Fin 2) h w))) := funext fun (q : Fin 96) => by
    have e : hR.lift (ix2 o (⟨h.val * 51 + w.val, hn⟩ : Fin 2601)) q = ix3 o q (⟨h.val * 51 + w.val, hn⟩ : Fin 2601) :=
      funext fun a => Fin.ext (by match a with | ⟨0, _⟩ => rfl | ⟨1, _⟩ => rfl | ⟨2, _⟩ => rfl)
    show val_main_v17 (F := Ideal) x wc rad (hR.lift _ q) = _
    rw [e]
    show (Ideal.cmp .une (val_main_v14 (F := Ideal) x wc rad _) (val_main_v15 (F := Ideal) _)).setWidth 32 = _
    rw [basis_ref, val_main_v15_apply]
    rfl
  rw [hl]
  show ((((Finset.univ : Finset (Fin 96)).fold IntOp.addi 0#32 _).toInt : ℝ) : EReal) = _
  rw [Spec.count_eq _ (fun q => Spec.flag_toNat_le _)]
  rfl

/-- The normaliser. -/
theorem norm_ref (o : Fin 256) (k : Fin 96) (h w : Fin 51) (hn : h.val * 51 + w.val < 2601) :
    val_main_v23 (F := Ideal) x wc rad (ix3 o k (⟨h.val * 51 + w.val, hn⟩ : Fin 2601))
      = Spec.count (fun q => Spec.basis (wc (ix3 o q (0 : Fin 2))) (wc (ix3 o q (1 : Fin 2))) (rad (ix4 o q (0 : Fin 1) (0 : Fin 1)))
          (x (ix4 (0 : Fin 1) (0 : Fin 2) h w)) (x (ix4 (0 : Fin 1) (1 : Fin 2) h w))) + Spec.eps := by
  rw [val_main_v23_apply]
  have i23 : idx_main_v23 (ix3 o k (⟨h.val * 51 + w.val, hn⟩ : Fin 2601)) = ix3 o (0 : Fin 1) (⟨h.val * 51 + w.val, hn⟩ : Fin 2601) :=
    funext fun a => Fin.ext (by match a with | ⟨0, _⟩ => rfl | ⟨1, _⟩ => rfl | ⟨2, _⟩ => rfl)
  rw [i23]
  show val_main_v20 (F := Ideal) x wc rad _ + val_main_v21 (F := Ideal) _ = _
  rw [count_ref, val_main_v21_apply]
  rfl

/-- The contraction with the weights: one cell. -/
theorem dot_ref (o c : Fin 256) (h w : Fin 51) (hn : h.val * 51 + w.val < 2601) :
    val_main_v25 (F := Ideal) x wc rad wts (ix3 o c (⟨h.val * 51 + w.val, hn⟩ : Fin 2601))
      = Spec.cell (fun p => wc (ix3 o p (0 : Fin 2))) (fun p => wc (ix3 o p (1 : Fin 2))) (fun p => rad (ix4 o p (0 : Fin 1) (0 : Fin 1)))
          (fun p => wts (ix3 o c p)) (x (ix4 (0 : Fin 1) (0 : Fin 2) h w)) (x (ix4 (0 : Fin 1) (1 : Fin 2) h w)) := by
  rw [val_main_v25_apply]
  unfold Spec.cell
  refine Finset.sum_congr rfl fun k _ => ?_
  have el : lidx_main_v25 (ix3 o c (⟨h.val * 51 + w.val, hn⟩ : Fin 2601)) k = ix3 o c k :=
    funext fun a => Fin.ext (by match a with | ⟨0, _⟩ => rfl | ⟨1, _⟩ => rfl | ⟨2, _⟩ => rfl)
  have er : ridx_main_v25 (ix3 o c (⟨h.val * 51 + w.val, hn⟩ : Fin 2601)) k = ix3 o k (⟨h.val * 51 + w.val, hn⟩ : Fin 2601) :=
    funext fun a => Fin.ext (by match a with | ⟨0, _⟩ => rfl | ⟨1, _⟩ => rfl | ⟨2, _⟩ => rfl)
  rw [el, er]
  show wts (ix3 o c k) * Ideal.div (val_main_v14 (F := Ideal) x wc rad _) (val_main_v23 (F := Ideal) x wc rad _) = _
  rw [basis_ref, norm_ref]

/-- The reference's result is the specification's. -/
theorem result_ref : val_main_v28 (F := Ideal) x wc rad wts = Spec.result x wc rad wts := by
  funext i
  obtain ⟨o, c, a, b, rfl⟩ : ∃ (o c : Fin 256) (a b : Fin 51), i = ix4 o c a b := ⟨i 0, i 1, i 2, i 3, eq_ix4 i⟩
  rw [Spec.result_apply]
  have ho := o.isLt; have hc := c.isLt; have hb := b.isLt; have hr := (Fin.rev a).isLt
  have hn : b.val * 51 + (Fin.rev a).val < 2601 := by omega
  show val_main_v27 (F := Ideal) x wc rad wts (fun k => if k ∈ [(2 : Fin 4)] then (ix4 o c a b k).rev else ix4 o c a b k) = _
  rw [val_main_v27_apply, val_main_v26_apply]
  have e26 : idx_main_v26 (idx_main_v27 (fun k => if k ∈ [(2 : Fin 4)] then (ix4 o c a b k).rev else ix4 o c a b k))
      = ix3 o c (⟨b.val * 51 + (Fin.rev a).val, hn⟩ : Fin 2601) := funext fun j => Fin.ext (by
    match j with
    | ⟨0, _⟩ => show (((o.val * 256 + c.val) * 51 + b.val) * 51 + (Fin.rev a).val) / 665856 = o.val; omega
    | ⟨1, _⟩ => show (((o.val * 256 + c.val) * 51 + b.val) * 51 + (Fin.rev a).val) / 2601 % 256 = c.val; omega
    | ⟨2, _⟩ => show (((o.val * 256 + c.val) * 51 + b.val) * 51 + (Fin.rev a).val) % 2601 = b.val * 51 + (Fin.rev a).val; omega)
  rw [e26, dot_ref]

end Cert.ReferenceIdeal.RefValue

end
-- ==== Proof.lean ====
/-
  The certificate: a Pallas kernel that builds a bank of 256 x 256 convolution kernels of 51 x 51 taps from learned
  points — per output channel 96 points with a position, a radius and a weight per input channel; each tap is the
  weighted sum over the points of a triangular basis of the L1 distance from the tap's coordinates to the point,
  normalised by the number of points that reach the tap — against its jnp reference.

  The kernel tiles 32 output channels by 256 taps per grid point, feeds the tap coordinates already permuted so that it
  writes the reference's final transpose-and-flip directly, and contracts on the matrix unit in bf16; the reference
  works on whole arrays in f32. At the ideal values a change of float format is the identity and a matrix product is
  its sum, so both are the same function of the four arguments, index by index: `Cert.Spec.result`. The two ways of
  counting the reaching points — floats summed, or 32-bit integers summed and converted — agree because 96 ones do not
  overflow (`Cert.Spec.count_eq`).

  The taps' axis has 2601 = 51 x 51 entries in blocks of 256: the last block overhangs the array, its tail in the
  staging buffer holds words nothing names, and the body computes on them. Each result column depends on its own tap's
  coordinates only, so nothing of the tail reaches the part of the result the write-back moves. For the frames this is
  not needed (the result's contents are left unnamed there); for the value it is proved at the ideal values.
-/
import proofs.«144877_j24730421691146_1_alg».proof.Defs
import proofs.«144877_j24730421691146_1_alg».proof.Proof.Gen.Kernel
import proofs.«144877_j24730421691146_1_alg».proof.Proof.Gen.KernelIdeal
import proofs.«144877_j24730421691146_1_alg».proof.Proof.Gen.ReferenceIdeal
import proofs.«144877_j24730421691146_1_alg».proof.Proof.Gen.Pre_finite_inputs
import proofs.«144877_j24730421691146_1_alg».proof.Proof.Gen.ReferenceIdeal.Run
import proofs.«144877_j24730421691146_1_alg».proof.Proof.Gen.ReferenceIdeal.Read
import proofs.«144877_j24730421691146_1_alg».proof.Proof.BitsFrame
import proofs.«144877_j24730421691146_1_alg».proof.Proof.IdealFrame
import proofs.«144877_j24730421691146_1_alg».proof.Proof.IdealRun
import proofs.«144877_j24730421691146_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal values both programs end with the result at `Spec.result` of the arguments. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_ref, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
